-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32 : Shape := ⟨3, ![64, 128, 32]⟩
abbrev S64x128 : Shape := ⟨2, ![64, 128]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S64x128x32 : S_.BroadcastsInDim S64x128x32 (![] : Fin 0 → Fin S64x128x32.rank)
  reducesTo_S64x128x32_S_d0_1_2 : S64x128x32.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x1 .f32) (main_arg7 : FVec F S1 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S64x128x32 .f32) (main_arg1 : IVec S64x128 32) (main_arg2 : FVec F S32x64 .f32) (main_arg3 : FVec F S64 .f32) (main_arg4 : FVec F S64x64 .f32) (main_arg5 : FVec F S64 .f32) (main_arg6 : FVec F S64x1 .f32) (main_arg7 : FVec F S1 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S64x128x32 .f32 := Host.absf main_arg0
  let main_cst : FVec F S_ .f32 := constant S_ .f32 0x7F800000#32
  let main_v1 : FVec F S64x128x32 .f32 := broadcastInDim S64x128x32 ![] bcast_S_S64x128x32 main_cst
  let main_v2 : IVec S64x128x32 1 := cmpf .olt main_v0 main_v1
  let main_c : IVec S_ 1 := constantI S_ 1 1#1
  let main_v3 : IVec S_ 1 := (fun x v => Host.reduce IntOp.andi x v reducesTo_S64x128x32_S_d0_1_2 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S64x128x32 : Shape := ⟨3, ![64, 128, 32]⟩
abbrev S64x128 : Shape := ⟨2, ![64, 128]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x1x128 : Shape := ⟨3, ![64, 1, 128]⟩
abbrev S1x128x32 : Shape := ⟨3, ![1, 128, 32]⟩
abbrev S1x1x128 : Shape := ⟨3, ![1, 1, 128]⟩
abbrev S128x32 : Shape := ⟨2, ![128, 32]⟩
abbrev S128 : Shape := ⟨1, ![128]⟩
abbrev S128x64 : Shape := ⟨2, ![128, 64]⟩
abbrev S1x64 : Shape := ⟨2, ![1, 64]⟩
abbrev S1x1 : Shape := ⟨2, ![1, 1]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S16384x64 : Shape := ⟨2, ![16384, 64]⟩
abbrev S128x128 : Shape := ⟨2, ![128, 128]⟩
abbrev S128x1 : Shape := ⟨2, ![128, 1]⟩
abbrev S1x128 : Shape := ⟨2, ![1, 128]⟩

abbrev nBuf : Space → Nat
  | .hbm => 19
  | .vmem => 18
  | .smem => 0
  | _ => 0

abbrev bufTy : (tb : Table) → Fin (tcTables nBuf tb) → BufTy
  | .hbm, ⟨0, _⟩ => ⟨S64x128x32, .f32⟩
  | .hbm, ⟨1, _⟩ => ⟨S64x128, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x1x128, .i32⟩
  | .hbm, ⟨15, _⟩ => ⟨S64, .f32⟩
  | .hbm, ⟨16, _⟩ => ⟨S64, .f32⟩
  | .hbm, ⟨17, _⟩ => ⟨S64x1x128, .f32⟩
  | .hbm, ⟨18, _⟩ => ⟨S64x128, .f32⟩
  | .local _ .vmem, ⟨0, _⟩ => ⟨S1x128x32, .f32⟩
  | .local _ .vmem, ⟨1, _⟩ => ⟨S1x128x32, .f32⟩
  | .local _ .vmem, ⟨2, _⟩ => ⟨S1x1x128, .i32⟩
  | .local _ .vmem, ⟨3, _⟩ => ⟨S1x1x128, .i32⟩
  | .local _ .vmem, ⟨4, _⟩ => ⟨S32x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64, .f32⟩
  | .local _ .vmem, ⟨9, _⟩ => ⟨S1, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64, .f32⟩
  | .local _ .vmem, ⟨15, _⟩ => ⟨S1, .f32⟩
  | .local _ .vmem, ⟨16, _⟩ => ⟨S1x1x128, .f32⟩
  | .local _ .vmem, ⟨17, _⟩ => ⟨S1x1x128, .f32⟩
  | _, _ => ⟨S64x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S64x128_S64x1x128 : S64x128.ShapeCasts S64x1x128
  shapeCasts_S64x1_S64 : S64x1.ShapeCasts S64
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S64x64_S64x64_0_0 : ∀ a, (![0, 0] : Fin 2 → Nat) a + S64x64.size a ≤ S64x64.size a
  h_S64x64 : 0 < S64x64.numel
  shapeCasts_S64_S64 : S64.ShapeCasts S64
  reduces_S128x64_S128 : S128x64.Reduces [1] S128
  inb_S1_S1_0 : ∀ a, (![0] : Fin 1 → Nat) a + S1.size a ≤ S1.size a
  h_S1 : 0 < S1.numel
  shapeCasts_S1_S1x1 : S1.ShapeCasts S1x1
  reduces_S1x1_S1 : S1x1.Reduces [1] S1
  inpos_S1x1_p0_0 : ∀ a, (![0, 0] : Fin 2 → Nat) a < S1x1.size a
  slices_S64x64_o0_0_S32x64 : S64x64.Slices ![0, 0] S32x64
  slices_S64x64_o32_0_S32x64 : S64x64.Slices ![32, 0] S32x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S64_S1x1x64 : S64.ShapeCasts S1x1x64
  broadcasts_S1x1x64_S128x128x64 : S1x1x64.Broadcasts S128x128x64
  shapeCasts_S128x128x64_S16384x64 : S128x128x64.ShapeCasts S16384x64
  broadcasts_S1x64_S16384x64 : S1x64.Broadcasts S16384x64
  shapeCasts_S16384x64_S128x128x64 : S16384x64.ShapeCasts S128x128x64
  reduces_S128x128x64_S128x128 : S128x128x64.Reduces [2] S128x128
  iota_S128x128_d0_w32 : S128x128.Iotas .tc 32 [0]
  iota_S128x128_d1_w32 : S128x128.Iotas .tc 32 [1]
  natLt_1_32 : 1 < 32
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  reduces_S128x128_S128 : S128x128.Reduces [1] S128
  reduces_S1x128_S1 : S1x128.Reduces [1] S1
  broadcasts_S1_S128 : S1.Broadcasts S128
  shapeCasts_S128_S1x1x128 : S128.ShapeCasts S1x1x128
  shapeCasts_S64x1x128_S64x128 : S64x1x128.ShapeCasts S64x128
  dot_S128x32_S32x64_S128x64_1_0_0_1_n_n_wf : DotDims.WF S128x32 S32x64 S128x64 [1] [0] [0] [1] [] []
  dot_S128x64_S64x64_S128x64_1_0_0_1_n_n_wf : DotDims.WF S128x64 S64x64 S128x64 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32.size a ≤ S64x128x32.size a
  hwx0_0 : ∀ i : grid0.Coords, EltTy.bits .f32 = 32 ∨ (Rect.block (s := S64x128x32) S1x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S64x1x128.size a
  hwx0_1 : ∀ i : grid0.Coords, EltTy.bits .i32 = 32 ∨ (Rect.block (s := S64x1x128) S1x1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x128.size a ≤ S64x1x128.size a
  hwx0_14 : ∀ i : grid0.Coords, EltTy.bits .f32 = 32 ∨ (Rect.block (s := S64x1x128) S1x1x128.size (cc0_transform_14 i) (hinb0_14 i)).WholeWords (EltTy.packing .f32)

variable [Facts₀]

def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S64x128x32 : Shape := ⟨3, ![64, 128, 32]⟩
abbrev S64x128 : Shape := ⟨2, ![64, 128]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x128x64 : Shape := ⟨3, ![64, 128, 64]⟩
abbrev S1x1x64 : Shape := ⟨3, ![1, 1, 64]⟩
abbrev S_ : Shape := ⟨0, ![]⟩
abbrev S64x128x1 : Shape := ⟨3, ![64, 128, 1]⟩
abbrev S1x1x1 : Shape := ⟨3, ![1, 1, 1]⟩
abbrev S64x128x1x64 : Shape := ⟨4, ![64, 128, 1, 64]⟩
abbrev S64x1x128x64 : Shape := ⟨4, ![64, 1, 128, 64]⟩
abbrev S64x128x128x64 : Shape := ⟨4, ![64, 128, 128, 64]⟩
abbrev S1x1x1x64 : Shape := ⟨4, ![1, 1, 1, 64]⟩
abbrev S64x128x128x1 : Shape := ⟨4, ![64, 128, 128, 1]⟩
abbrev S1x1x1x1 : Shape := ⟨4, ![1, 1, 1, 1]⟩
abbrev S64x128x128 : Shape := ⟨3, ![64, 128, 128]⟩
abbrev S128x128 : Shape := ⟨2, ![128, 128]⟩
abbrev S1x128x128 : Shape := ⟨3, ![1, 128, 128]⟩
abbrev S64x1x128 : Shape := ⟨3, ![64, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S64x128x32, .f32⟩
  | .hbm, ⟨1, _⟩ => ⟨S64x128, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x128x64, .f32⟩
  | .hbm, ⟨15, _⟩ => ⟨S1x1x64, .f32⟩
  | .hbm, ⟨16, _⟩ => ⟨S64x128x64, .f32⟩
  | .hbm, ⟨17, _⟩ => ⟨S64x128x64, .f32⟩
  | .hbm, ⟨18, _⟩ => ⟨S_, .f32⟩
  | .hbm, ⟨19, _⟩ => ⟨S64x128x64, .f32⟩
  | .hbm, ⟨20, _⟩ => ⟨S64x128x64, .f32⟩
  | .hbm, ⟨21, _⟩ => ⟨S64x128x64, .f32⟩
  | .hbm, ⟨22, _⟩ => ⟨S1x1x64, .f32⟩
  | .hbm, ⟨23, _⟩ => ⟨S64x128x64, .f32⟩
  | .hbm, ⟨24, _⟩ => ⟨S64x128x64, .f32⟩
  | .hbm, ⟨25, _⟩ => ⟨S_, .f32⟩
  | .hbm, ⟨26, _⟩ => ⟨S64x128x64, .f32⟩
  | .hbm, ⟨27, _⟩ => ⟨S64x128x64, .f32⟩
  | .hbm, ⟨28, _⟩ => ⟨S64x128x1, .f32⟩
  | .hbm, ⟨29, _⟩ => ⟨S1x1x1, .f32⟩
  | .hbm, ⟨30, _⟩ => ⟨S64x128x1, .f32⟩
  | .hbm, ⟨31, _⟩ => ⟨S64x128x1, .f32⟩
  | .hbm, ⟨32, _⟩ => ⟨S64x128, .f32⟩
  | .hbm, ⟨33, _⟩ => ⟨S32x64, .f32⟩
  | .hbm, ⟨34, _⟩ => ⟨S32x64, .f32⟩
  | .hbm, ⟨35, _⟩ => ⟨S64x128x64, .f32⟩
  | .hbm, ⟨36, _⟩ => ⟨S64x128x64, .f32⟩
  | .hbm, ⟨37, _⟩ => ⟨S64x128x1x64, .f32⟩
  | .hbm, ⟨38, _⟩ => ⟨S64x1x128x64, .f32⟩
  | .hbm, ⟨39, _⟩ => ⟨S64x128x128x64, .f32⟩
  | .hbm, ⟨40, _⟩ => ⟨S64x128x128x64, .f32⟩
  | .hbm, ⟨41, _⟩ => ⟨S64x128x128x64, .f32⟩
  | .hbm, ⟨42, _⟩ => ⟨S1x1x1x64, .f32⟩
  | .hbm, ⟨43, _⟩ => ⟨S64x128x128x64, .f32⟩
  | .hbm, ⟨44, _⟩ => ⟨S64x128x128x64, .f32⟩
  | .hbm, ⟨45, _⟩ => ⟨S_, .f32⟩
  | .hbm, ⟨46, _⟩ => ⟨S64x128x128x64, .f32⟩
  | .hbm, ⟨47, _⟩ => ⟨S64x128x128x64, .f32⟩
  | .hbm, ⟨48, _⟩ => ⟨S64x128x128x64, .f32⟩
  | .hbm, ⟨49, _⟩ => ⟨S1x1x1x64, .f32⟩
  | .hbm, ⟨50, _⟩ => ⟨S64x128x128x64, .f32⟩
  | .hbm, ⟨51, _⟩ => ⟨S64x128x128x64, .f32⟩
  | .hbm, ⟨52, _⟩ => ⟨S_, .f32⟩
  | .hbm, ⟨53, _⟩ => ⟨S64x128x128x64, .f32⟩
  | .hbm, ⟨54, _⟩ => ⟨S64x128x128x64, .f32⟩
  | .hbm, ⟨55, _⟩ => ⟨S64x128x128x1, .f32⟩
  | .hbm, ⟨56, _⟩ => ⟨S1x1x1x1, .f32⟩
  | .hbm, ⟨57, _⟩ => ⟨S64x128x128x1, .f32⟩
  | .hbm, ⟨58, _⟩ => ⟨S64x128x128x1, .f32⟩
  | .hbm, ⟨59, _⟩ => ⟨S64x128x128, .f32⟩
  | .hbm, ⟨60, _⟩ => ⟨S128x128, .i32⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S128x128, .f32⟩
  | .hbm, ⟨67, _⟩ => ⟨S_, .f32⟩
  | .hbm, ⟨68, _⟩ => ⟨S128x128, .f32⟩
  | .hbm, ⟨69, _⟩ => ⟨S128x128, .f32⟩
  | .hbm, ⟨70, _⟩ => ⟨S1x128x128, .f32⟩
  | .hbm, ⟨71, _⟩ => ⟨S64x128x128, .f32⟩
  | .hbm, ⟨72, _⟩ => ⟨S64x128x128, .f32⟩
  | .hbm, ⟨73, _⟩ => ⟨S64x128, .f32⟩
  | .hbm, ⟨74, _⟩ => ⟨S64x128x1, .f32⟩
  | .hbm, ⟨75, _⟩ => ⟨S64x1x128, .f32⟩
  | .hbm, ⟨76, _⟩ => ⟨S64x128x128, .f32⟩
  | .hbm, ⟨77, _⟩ => ⟨S64x128x128, .f32⟩
  | .hbm, ⟨78, _⟩ => ⟨S64x128x128, .f32⟩
  | .hbm, ⟨79, _⟩ => ⟨S64x128x128, .f32⟩
  | .hbm, ⟨80, _⟩ => ⟨S_, .f32⟩
  | .hbm, ⟨81, _⟩ => ⟨S64x128, .f32⟩
  | .hbm, ⟨82, _⟩ => ⟨S64x128, .f32⟩
  | .hbm, ⟨83, _⟩ => ⟨S_, .i32⟩
  | .hbm, ⟨84, _⟩ => ⟨S64x128, .i32⟩
  | .hbm, ⟨85, _⟩ => ⟨S64x128, .i1⟩
  | .hbm, ⟨86, _⟩ => ⟨S64x128, .i1⟩
  | .hbm, ⟨87, _⟩ => ⟨S_, .f32⟩
  | .hbm, ⟨88, _⟩ => ⟨S64x128, .f32⟩
  | .hbm, ⟨89, _⟩ => ⟨S64x128, .f32⟩
  | .hbm, ⟨90, _⟩ => ⟨S_, .f32⟩
  | .hbm, ⟨91, _⟩ => ⟨S64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S64x128, .f32⟩
  | .hbm, ⟨99, _⟩ => ⟨S_, .f32⟩
  | .hbm, ⟨100, _⟩ => ⟨S64, .f32⟩
  | .hbm, ⟨101, _⟩ => ⟨S64x1, .f32⟩
  | .hbm, ⟨102, _⟩ => ⟨S64x128, .f32⟩
  | .hbm, ⟨103, _⟩ => ⟨S64x128, .f32⟩
  | _, _ => ⟨S64x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_cst : Ref sig .tc := ⟨.hbm, 45, rfl⟩
abbrev main_call2_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call3_cst : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_0 : Ref sig .tc := ⟨.hbm, 80, rfl⟩
abbrev main_v56 : Ref sig .tc := ⟨.hbm, 81, rfl⟩
abbrev main_v57 : Ref sig .tc := ⟨.hbm, 82, rfl⟩
abbrev main_c_1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_2 : Ref sig .tc := ⟨.hbm, 87, rfl⟩
abbrev main_call4_v0 : Ref sig .tc := ⟨.hbm, 88, rfl⟩
abbrev main_v61 : Ref sig .tc := ⟨.hbm, 89, rfl⟩
abbrev main_cst_3 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S64x128x64_0_1_2 : S1x1x64.BroadcastsInDim S64x128x64 (![0, 1, 2] : Fin 3 → Fin S64x128x64.rank)
  bcast_S_S64x128x64 : S_.BroadcastsInDim S64x128x64 (![] : Fin 0 → Fin S64x128x64.rank)
  bcast_S1_S1x1x1_2 : S1.BroadcastsInDim S1x1x1 (![2] : Fin 1 → Fin S1x1x1.rank)
  bcast_S1x1x1_S64x128x1_0_1_2 : S1x1x1.BroadcastsInDim S64x128x1 (![0, 1, 2] : Fin 3 → Fin S64x128x1.rank)
  shapeCasts_S64x128x1_S64x128 : S64x128x1.ShapeCasts S64x128
  slices_S64x64_S32x64_0_0 : S64x64.Slices ![0, 0] S32x64
  slices_S64x64_S32x64_32_0 : S64x64.Slices ![32, 0] S32x64
  bcast_S64x128x64_S64x128x1x64_0_1_3 : S64x128x64.BroadcastsInDim S64x128x1x64 (![0, 1, 3] : Fin 3 → Fin S64x128x1x64.rank)
  bcast_S64x128x64_S64x1x128x64_0_2_3 : S64x128x64.BroadcastsInDim S64x1x128x64 (![0, 2, 3] : Fin 3 → Fin S64x1x128x64.rank)
  bcast_S64x128x1x64_S64x128x128x64_0_1_2_3 : S64x128x1x64.BroadcastsInDim S64x128x128x64 (![0, 1, 2, 3] : Fin 4 → Fin S64x128x128x64.rank)
  bcast_S64x1x128x64_S64x128x128x64_0_1_2_3 : S64x1x128x64.BroadcastsInDim S64x128x128x64 (![0, 1, 2, 3] : Fin 4 → Fin S64x128x128x64.rank)
  bcast_S64_S1x1x1x64_3 : S64.BroadcastsInDim S1x1x1x64 (![3] : Fin 1 → Fin S1x1x1x64.rank)
  bcast_S1x1x1x64_S64x128x128x64_0_1_2_3 : S1x1x1x64.BroadcastsInDim S64x128x128x64 (![0, 1, 2, 3] : Fin 4 → Fin S64x128x128x64.rank)
  bcast_S_S64x128x128x64 : S_.BroadcastsInDim S64x128x128x64 (![] : Fin 0 → Fin S64x128x128x64.rank)
  bcast_S1_S1x1x1x1_3 : S1.BroadcastsInDim S1x1x1x1 (![3] : Fin 1 → Fin S1x1x1x1.rank)
  bcast_S1x1x1x1_S64x128x128x1_0_1_2_3 : S1x1x1x1.BroadcastsInDim S64x128x128x1 (![0, 1, 2, 3] : Fin 4 → Fin S64x128x128x1.rank)
  shapeCasts_S64x128x128x1_S64x128x128 : S64x128x128x1.ShapeCasts S64x128x128
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S64x128x128_0_1_2 : S1x128x128.BroadcastsInDim S64x128x128 (![0, 1, 2] : Fin 3 → Fin S64x128x128.rank)
  bcast_S64x128_S64x128x1_0_1 : S64x128.BroadcastsInDim S64x128x1 (![0, 1] : Fin 2 → Fin S64x128x1.rank)
  bcast_S64x128_S64x1x128_0_2 : S64x128.BroadcastsInDim S64x1x128 (![0, 2] : Fin 2 → Fin S64x1x128.rank)
  bcast_S64x128x1_S64x128x128_0_1_2 : S64x128x1.BroadcastsInDim S64x128x128 (![0, 1, 2] : Fin 3 → Fin S64x128x128.rank)
  bcast_S64x1x128_S64x128x128_0_1_2 : S64x1x128.BroadcastsInDim S64x128x128 (![0, 1, 2] : Fin 3 → Fin S64x128x128.rank)
  reducesTo_S64x128x128_S64x128_d2 : S64x128x128.ReducesTo [2] S64x128
  h_S_ : 0 < S_.numel
  bcast_S_S64x128 : S_.BroadcastsInDim S64x128 (![] : Fin 0 → Fin S64x128.rank)
  reducesTo_S64x128_S64_d1 : S64x128.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S64x128x32_S32x64_S64x128x64_2_0_01_1_n_n_wf : DotDims.WF S64x128x32 S32x64 S64x128x64 [2] [0] [0, 1] [1] [] []
  dot_S64x128x64_S64x64_S64x128x64_2_0_01_1_n_n_wf : DotDims.WF S64x128x64 S64x64 S64x128x64 [2] [0] [0, 1] [1] [] []
  dot_S64x128x64_S64x1_S64x128x1_2_0_01_1_n_n_wf : DotDims.WF S64x128x64 S64x1 S64x128x1 [2] [0] [0, 1] [1] [] []
  dot_S64x128x128x64_S64x64_S64x128x128x64_3_0_012_1_n_n_wf : DotDims.WF S64x128x128x64 S64x64 S64x128x128x64 [3] [0] [0, 1, 2] [1] [] []
  dot_S64x128x128x64_S64x1_S64x128x128x1_3_0_012_1_n_n_wf : DotDims.WF S64x128x128x64 S64x1 S64x128x128x1 [3] [0] [0, 1, 2] [1] [] []

variable [Facts₀]

def dot_S64x128x32_S32x64_S64x128x64_2_0_01_1_n_n : DotDims S64x128x32 S32x64 S64x128x64 where
  lhsContracting := [2]
  rhsContracting := [0]
  lhsNonContracting := [0, 1]
  rhsNonContracting := [1]
  lhsBatch := []
  rhsBatch := []
  wf := dot_S64x128x32_S32x64_S64x128x64_2_0_01_1_n_n_wf
def dot_S64x128x64_S64x64_S64x128x64_2_0_01_1_n_n : DotDims S64x128x64 S64x64 S64x128x64 where
  lhsContracting := [2]
  rhsContracting := [0]
  lhsNonContracting := [0, 1]
  rhsNonContracting := [1]
  lhsBatch := []
  rhsBatch := []
  wf := dot_S64x128x64_S64x64_S64x128x64_2_0_01_1_n_n_wf
def dot_S64x128x64_S64x1_S64x128x1_2_0_01_1_n_n : DotDims S64x128x64 S64x1 S64x128x1 where
  lhsContracting := [2]
  rhsContracting := [0]
  lhsNonContracting := [0, 1]
  rhsNonContracting := [1]
  lhsBatch := []
  rhsBatch := []
  wf := dot_S64x128x64_S64x1_S64x128x1_2_0_01_1_n_n_wf
def dot_S64x128x128x64_S64x64_S64x128x128x64_3_0_012_1_n_n : DotDims S64x128x128x64 S64x64 S64x128x128x64 where
  lhsContracting := [3]
  rhsContracting := [0]
  lhsNonContracting := [0, 1, 2]
  rhsNonContracting := [1]
  lhsBatch := []
  rhsBatch := []
  wf := dot_S64x128x128x64_S64x64_S64x128x128x64_3_0_012_1_n_n_wf
def dot_S64x128x128x64_S64x1_S64x128x128x1_3_0_012_1_n_n : DotDims S64x128x128x64 S64x1 S64x128x128x1 where
  lhsContracting := [3]
  rhsContracting := [0]
  lhsNonContracting := [0, 1, 2]
  rhsNonContracting := [1]
  lhsBatch := []
  rhsBatch := []
  wf := dot_S64x128x128x64_S64x1_S64x128x128x1_3_0_012_1_n_n_wf

class Facts : Prop extends Facts₀ where

variable [Facts]
-- ==== Proof.Spec.lean ====
/-
  The choice model both programs compute, written once over coordinates.

  For one batch element there are `n` alternatives with `d` features each (`X i f`) and an integer availability
  flag per alternative (`mk i`).  Two small perceptrons score them:

    • the BASE score of alternative `i`: two dense layers with a rectifier, then a linear read-out,
        `head (hidden (hidden (X i) W1 b1) W2 b2) w3 b3`;
    • the PAIR score of `(i, j)`: the first layer acts on the concatenation `[X i ; X j]`, which is the sum of a
      projection of `X i` by the upper half `Wi` of the weight matrix and of `X j` by its lower half `Wj`; then a
      rectifier, a second dense layer with a rectifier, and a linear read-out.

  The utility of `i` is its base score plus the sum over `j` of the pair scores, each multiplied by `0` on the
  diagonal (`offDiag`) and by the product of the two availability flags read as numbers.  An alternative whose flag
  is zero gets the fill value instead, and the result is the softmax of the utilities over the alternatives:
  `exp (u i - top u) / Σ_j exp (u j - top u)`, with `top u` the largest utility.

  Everything is on the extended reals with the conventions of the exact float instance (`Ideal.div`, `Ideal.exp`);
  no law here needs finiteness: the two programs build this same tree, and differ only in the arrangement of the
  arrays that hold its pieces.
-/
import Idealize.ShloMosaic.PureOps.Ideal
import Idealize.ShloMosaic.PureOps.Ideal.Laws
import Idealize.ShloMosaic.Lib.ValueIdx

noncomputable section

namespace Cert.ChoiceSpec

open Idealize.ShloMosaic

/-- The rectifier. -/
def relu (x : EReal) : EReal := max x 0

/-- A vector times a matrix, at output unit `u`. -/
def proj {K N : ℕ} (x : Fin K → EReal) (W : Fin K → Fin N → EReal) (u : Fin N) : EReal := ∑ k : Fin K, x k * W k u

/-- A dense layer with a bias and the rectifier, at output unit `u`. -/
def hidden {K N : ℕ} (x : Fin K → EReal) (W : Fin K → Fin N → EReal) (b : Fin N → EReal) (u : Fin N) : EReal :=
  relu (proj x W u + b u)

/-- A linear read-out: `Σ_k x k · w k + b`. -/
def head {K : ℕ} (x : Fin K → EReal) (w : Fin K → EReal) (b : EReal) : EReal := (∑ k : Fin K, x k * w k) + b

/-- The weights of the two perceptrons: the base one (`W1 b1 W2 b2 w3 b3`) and the pair one, whose first weight
    matrix is kept as its two halves `Wi`, `Wj` (`c1 V2 c2 v3 c3` are its biases, second matrix and read-out). -/
structure Weights (d h : ℕ) where
  W1 : Fin d → Fin h → EReal
  b1 : Fin h → EReal
  W2 : Fin h → Fin h → EReal
  b2 : Fin h → EReal
  w3 : Fin h → EReal
  b3 : EReal
  Wi : Fin d → Fin h → EReal
  Wj : Fin d → Fin h → EReal
  c1 : Fin h → EReal
  V2 : Fin h → Fin h → EReal
  c2 : Fin h → EReal
  v3 : Fin h → EReal
  c3 : EReal

variable {n d h : ℕ}

/-- The base score of one alternative with features `x`. -/
def baseScore (P : Weights d h) (x : Fin d → EReal) : EReal :=
  head (hidden (hidden x P.W1 P.b1) P.W2 P.b2) P.w3 P.b3

/-- The pair perceptron's first layer on `[xi ; xj]`, at unit `u`. -/
def pairHidden (P : Weights d h) (xi xj : Fin d → EReal) (u : Fin h) : EReal :=
  relu ((proj xi P.Wi u + proj xj P.Wj u) + P.c1 u)

/-- The pair score of two alternatives with features `xi`, `xj`. -/
def pairScore (P : Weights d h) (xi xj : Fin d → EReal) : EReal :=
  head (hidden (pairHidden P xi xj) P.V2 P.c2) P.v3 P.c3

/-- `0` on the diagonal, `1` off it. -/
def offDiag (i j : Fin n) : EReal := if i = j then 0 else 1

/-- An availability flag read as a number. -/
def flag (b : BitVec 32) : EReal := ((b.toInt : ℝ) : EReal)

/-- The utility of alternative `i`. -/
def utility (P : Weights d h) (X : Fin n → Fin d → EReal) (mk : Fin n → BitVec 32) (i : Fin n) : EReal :=
  baseScore P (X i) + ∑ j : Fin n, (pairScore P (X i) (X j) * offDiag i j) * (flag (mk i) * flag (mk j))

/-- The utility where the flag is nonzero, the fill value elsewhere. -/
def masked (mk : Fin n → BitVec 32) (u : Fin n → EReal) (fill : EReal) (i : Fin n) : EReal :=
  Scalar.select (IntOp.cmpi .ne (mk i) 0#32) (u i) fill

/-- The largest entry, as a fold of `max` from a starting value. -/
def top (start : EReal) (u : Fin n → EReal) : EReal := (Finset.univ : Finset (Fin n)).fold max start u

/-- The softmax over the alternatives, normalised by the fold of `max` from `start`. -/
def softmax (start : EReal) (u : Fin n → EReal) (i : Fin n) : EReal :=
  Ideal.div (Ideal.exp (u i - top start u)) (∑ j : Fin n, Ideal.exp (u j - top start u))

/-- The choice probabilities of one batch element. -/
def choice (P : Weights d h) (X : Fin n → Fin d → EReal) (mk : Fin n → BitVec 32) (fill start : EReal) (i : Fin n) : EReal :=
  softmax start (masked mk (utility P X mk) fill) i

/-- Taking the maximum of the starting value with a fold of `max` from that same value changes nothing. -/
theorem max_start_top (start : EReal) (u : Fin n → EReal) : max start (top start u) = top start u :=
  max_eq_right ((Finset.le_fold_max start).mpr (Or.inl le_rfl))

/-- One minus the diagonal's indicator is the off-diagonal's. -/
theorem one_sub_diag (i j : Fin n) : (1 : EReal) - (if i = j then 1 else 0) = offDiag i j := by
  unfold offDiag
  split
  · rw [show (1 : EReal) = ((1 : ℝ) : EReal) from rfl, ← EReal.coe_sub, sub_self]; rfl
  · exact sub_zero _

end Cert.ChoiceSpec

/-! ## The model read off the argument arrays -/

namespace Cert.ChoiceSpec

open Idealize.ShloMosaic Idealize.ShloMosaic.ValueIdx

/-- The weights as the fourteen argument arrays hold them: the read-out vectors are the one column of a `[64, 1]`
    array, the two scalar biases the one entry of a `[1]` array, and the pair perceptron's first matrix `[64, 64]`
    is split into its rows `0 … 31` (acting on the first alternative) and `32 … 63` (on the second). -/
def weightsOf (a2 : (⟨2, ![32, 64]⟩ : Shape).Idx → EReal) (a3 : (⟨1, ![64]⟩ : Shape).Idx → EReal)
    (a4 : (⟨2, ![64, 64]⟩ : Shape).Idx → EReal) (a5 : (⟨1, ![64]⟩ : Shape).Idx → EReal)
    (a6 : (⟨2, ![64, 1]⟩ : Shape).Idx → EReal) (a7 : (⟨1, ![1]⟩ : Shape).Idx → EReal)
    (a8 : (⟨2, ![64, 64]⟩ : Shape).Idx → EReal) (a9 : (⟨1, ![64]⟩ : Shape).Idx → EReal)
    (a10 : (⟨2, ![64, 64]⟩ : Shape).Idx → EReal) (a11 : (⟨1, ![64]⟩ : Shape).Idx → EReal)
    (a12 : (⟨2, ![64, 1]⟩ : Shape).Idx → EReal) (a13 : (⟨1, ![1]⟩ : Shape).Idx → EReal) : Weights 32 64 where
  W1 f u := a2 (ix2 f u)
  b1 u := a3 (ix1 u)
  W2 u v := a4 (ix2 u v)
  b2 v := a5 (ix1 v)
  w3 v := a6 (ix2 v (0 : Fin 1))
  b3 := a7 (ix1 (0 : Fin 1))
  Wi f u := a8 (ix2 (⟨f.val, by have := f.isLt; omega⟩ : Fin 64) u)
  Wj f u := a8 (ix2 (⟨32 + f.val, by have := f.isLt; omega⟩ : Fin 64) u)
  c1 u := a9 (ix1 u)
  V2 u v := a10 (ix2 u v)
  c2 v := a11 (ix1 v)
  v3 v := a12 (ix2 v (0 : Fin 1))
  c3 := a13 (ix1 (0 : Fin 1))

/-- The fill value of an unavailable alternative: the number the word `0xCE6E6B28` denotes (`-10⁹`). -/
def fillValue : EReal := Ideal.ofBits .f32 0xCE6E6B28#32

/-- The starting value of the maximum: what the word `0xFF800000` denotes (`-∞`). -/
def startValue : EReal := Ideal.ofBits .f32 0xFF800000#32

/-- THE RESULT, entry `(b, i)`: the choice probability of alternative `i` of batch element `b`. -/
def G (a0 : (⟨3, ![64, 128, 32]⟩ : Shape).Idx → EReal) (a1 : (⟨2, ![64, 128]⟩ : Shape).Idx → BitVec 32)
    (a2 : (⟨2, ![32, 64]⟩ : Shape).Idx → EReal) (a3 : (⟨1, ![64]⟩ : Shape).Idx → EReal)
    (a4 : (⟨2, ![64, 64]⟩ : Shape).Idx → EReal) (a5 : (⟨1, ![64]⟩ : Shape).Idx → EReal)
    (a6 : (⟨2, ![64, 1]⟩ : Shape).Idx → EReal) (a7 : (⟨1, ![1]⟩ : Shape).Idx → EReal)
    (a8 : (⟨2, ![64, 64]⟩ : Shape).Idx → EReal) (a9 : (⟨1, ![64]⟩ : Shape).Idx → EReal)
    (a10 : (⟨2, ![64, 64]⟩ : Shape).Idx → EReal) (a11 : (⟨1, ![64]⟩ : Shape).Idx → EReal)
    (a12 : (⟨2, ![64, 1]⟩ : Shape).Idx → EReal) (a13 : (⟨1, ![1]⟩ : Shape).Idx → EReal) :
    (⟨2, ![64, 128]⟩ : Shape).Idx → EReal := fun i =>
  choice (weightsOf a2 a3 a4 a5 a6 a7 a8 a9 a10 a11 a12 a13) (fun r f => a0 (ix3 (i 0) r f)) (fun r => a1 (ix2 (i 0) r))
    fillValue startValue (i 1)

end Cert.ChoiceSpec

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibSmallLayout.lean ====
/-
  A few more values read at an index given by coordinates.

    • the square root and the exponential of a vector of extended reals are taken entry by entry;
    • a `[1, 1]` array spread to `[a, b]` reads its one entry everywhere;
    • a splat of a scalar word reads that word's value everywhere.
-/
import Idealize.ShloMosaic.Lib.ValueLayout
import Idealize.ShloMosaic.PureOps.Ideal.Laws

namespace Cert.SmallLayout

open Idealize.ShloMosaic Idealize.ShloMosaic.ValueIdx

variable {α : Type} {s : Shape} {φ : FTy}

/-- The square root of a vector of extended reals, at an index, is the square root of the entry there. -/
theorem sqrt_apply (a : FVec Ideal s φ) (i : s.Idx) : sqrt a i = Ideal.sqrt (a i) := rfl

/-- The exponential of a vector of extended reals, at an index, is the exponential of the entry there. -/
theorem exp_apply (a : FVec Ideal s φ) (i : s.Idx) : exp a i = Ideal.exp (a i) := rfl

/-- A splat of the scalar a word denotes reads, at every index, the extended real the word denotes. -/
theorem broadcast_ofBits_apply (b : BitVec (FTy.f32).bits) (i : s.Idx) :
    broadcast s (Scalar.ofBits (F := Ideal) .f32 b) i = Ideal.ofBits .f32 b := rfl

/-- A `[1, 1]` array broadcast to `[a, b]` reads, at every `(i, j)`, its one entry. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Cert.SmallLayout
-- ==== Proof.LibUnitLayout.lean ====
/-
  Unit-extent layouts and index words read at coordinates, at any extents.

  A body that reduces a row to one number keeps that number in arrays of extent one — `[1]`, `[1, 1]` — pulls it out
  as a scalar and spreads it again; and it marks the diagonal of a square array by comparing two index arrays. None of
  this computes anything; the lemmas say which entry or which word each result holds:
    • a `[1, 1, n]` array cast to `[n]`: entry `k` is entry `(0, 0, k)`;
    • every index of a `[1, 1]` array is `(0, 0)`, so the scalar extracted at position `(0, 0)` from a `[1]`
      vector recast as `[1, 1]` is the vector's one entry;
    • a `[1]` vector spread to `[n]`: every entry is its one entry;
    • the index array along axis `0` (axis `1`) of an `[a, b]` array holds at `(i, j)` the word of `i` (of `j`);
    • for `i, j` below `2³²`, the "not equal" bit of their two words, widened to 32 bits and read as a signed
      number, is `0` when `i = j` and `1` otherwise; the "equal" bit read as an unsigned number is the opposite.
-/
import Idealize.ShloMosaic.Lib.ValueLayout
import Idealize.ShloMosaic.Lib.Pipeline.Value
import Idealize.ShloMosaic.PureOps.Ideal.Laws

namespace Cert.UnitLayout

open Idealize.ShloMosaic Idealize.ShloMosaic.ValueIdx

variable {α : Type}

/-- A `[1, 1, n]` array cast to `[n]` reads, at `k`, the operand at `(0, 0, k)`. -/
theorem shapeCast_11n_n_apply {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    simp)

/-- Every index of a `[1, 1]` array is `(0, 0)`. -/
theorem idx11_eq (j : (⟨2, ![1, 1]⟩ : Shape).Idx) : j = ix2 (0 : Fin 1) (0 : Fin 1) := by
  have h0 : (j 0).val = 0 := Nat.lt_one_iff.mp (j 0).isLt
  have h1 : (j 1).val = 0 := Nat.lt_one_iff.mp (j 1).isLt
  funext d
  match d with
  | ⟨0, _⟩ => exact Fin.ext h0
  | ⟨1, _⟩ => exact Fin.ext h1

/-- The scalar extracted at position `(0, 0)` of a `[1]` vector recast as `[1, 1]` is the vector's one entry. -/
theorem extract_one_apply (v : (⟨1, ![1]⟩ : Shape).Idx → α) (h : (⟨1, ![1]⟩ : Shape).ShapeCasts ⟨2, ![1, 1]⟩)
    (hp : ∀ a, (![0, 0] : Fin 2 → ℕ) a < (⟨2, ![1, 1]⟩ : Shape).size a) :
    extractAt ![0, 0] (shapeCast ⟨2, ![1, 1]⟩ v h) hp = v (ix1 (0 : Fin 1)) := by
  unfold extractAt
  exact (congrArg (shapeCast ⟨2, ![1, 1]⟩ v h) (idx11_eq _)).trans (shapeCast_a_1a_apply v h 0 0)

/-- A `[1]` vector spread to `[n]` reads, at every `k`, its one entry. -/
theorem broadcastTo_1_n_apply {n : ℕ} (v : (⟨1, ![1]⟩ : Shape).Idx → α) (h : (⟨1, ![1]⟩ : Shape).Broadcasts ⟨1, ![n]⟩)
    (k : Fin n) : broadcastTo ⟨1, ![n]⟩ v h (ix1 k) = v (ix1 (0 : Fin 1)) := by
  refine broadcastTo_apply v h (ix1 k) (ix1 (0 : Fin 1)) fun ax => ?_
  match ax with
  | ⟨0, _⟩ => rfl

/-- The index array along axis `0` of an `[a, b]` array holds, at `(i, j)`, the word of `i`. -/
theorem iota_rows_apply {κ : Kind} {a b : ℕ} (h : (⟨2, ![a, b]⟩ : Shape).Iotas κ 32 [0]) (i : Fin a) (j : Fin b) :
    iota κ ⟨2, ![a, b]⟩ 32 [0] h (ix2 i j) = BitVec.ofNat 32 i.val := by
  unfold iota
  show BitVec.ofNat 32 (0 * a + i.val) = _
  rw [Nat.zero_mul, Nat.zero_add]

/-- The index array along axis `1` of an `[a, b]` array holds, at `(i, j)`, the word of `j`. -/
theorem iota_cols_apply {κ : Kind} {a b : ℕ} (h : (⟨2, ![a, b]⟩ : Shape).Iotas κ 32 [1]) (i : Fin a) (j : Fin b) :
    iota κ ⟨2, ![a, b]⟩ 32 [1] h (ix2 i j) = BitVec.ofNat 32 j.val := by
  unfold iota
  show BitVec.ofNat 32 (0 * b + j.val) = _
  rw [Nat.zero_mul, Nat.zero_add]

/-- Two numbers below `2³²` have the same 32-bit word only if they are equal. -/
theorem ofNat_inj {p q : ℕ} (hp : p < 4294967296) (hq : q < 4294967296) :
    BitVec.ofNat 32 p = BitVec.ofNat 32 q ↔ p = q := by
  constructor
  · intro e
    have := congrArg BitVec.toNat e
    simp only [BitVec.toNat_ofNat] at this
    rw [Nat.mod_eq_of_lt (by simpa using hp), Nat.mod_eq_of_lt (by simpa using hq)] at this
    exact this
  · rintro rfl; rfl

/-- The "not equal" bit of the words of `i` and `j`, widened to 32 bits and read as a signed number: `0` on the
    diagonal, `1` off it. -/
theorem ne_word_apply {n : ℕ} (hn : n ≤ 4294967296) (i j : Fin n) :
    FloatOps.sitofp (F := Ideal) .f32 ((IntOp.cmpi .ne (BitVec.ofNat 32 i.val) (BitVec.ofNat 32 j.val)).setWidth 32)
      = if i = j then (0 : EReal) else 1 := by
  have hi : i.val < 4294967296 := lt_of_lt_of_le i.isLt hn
  have hj : j.val < 4294967296 := lt_of_lt_of_le j.isLt hn
  by_cases e : i = j
  · subst e
    rw [if_pos rfl]
    show (((BitVec.ofBool (BitVec.ofNat 32 i.val != BitVec.ofNat 32 i.val)).setWidth 32).toInt : ℝ) = (0 : EReal)
    simp
  · rw [if_neg e]
    have hne : BitVec.ofNat 32 i.val ≠ BitVec.ofNat 32 j.val := fun h => e (Fin.ext ((ofNat_inj hi hj).mp h))
    show (((BitVec.ofBool (BitVec.ofNat 32 i.val != BitVec.ofNat 32 j.val)).setWidth 32).toInt : ℝ) = (1 : EReal)
    have : (BitVec.ofNat 32 i.val != BitVec.ofNat 32 j.val) = true := by simpa using hne
    rw [this]
    simp

end Cert.UnitLayout
-- ==== Proof.KernelBody.lean ====
/-
  What the kernel body computes for one batch element, read at coordinates.

  The body's result block is one pure term of the blocks it loads (the generated payload functions).  Read at the
  alternative `i`, that term is the choice model of `Spec.lean` evaluated on the loaded blocks:

    • the features are the `[1, 128, 32]` block with its unit axis dropped, the flags the `[1, 1, 128]` block
      likewise (`feat_apply`, `mask_apply`);
    • the base score: two matrix products into zero accumulators, each followed by a bias row spread over the
      128 rows and a maximum with zero, then a product with the read-out row and a sum along the 64 units, plus the
      scalar bias — the sum of a `[1, 1]` array, which is its one entry (`base_apply`);
    • the pair score of `(i, j)`: the two projections are laid out as `[128, 1, 64]` and `[1, 128, 64]` and spread
      to `[128, 128, 64]`, so entry `(i, j, u)` is projection-of-`i` plus projection-of-`j`; the two leading axes
      are merged into `16384 = 128·128` rows (row `i·128 + j`) for the second matrix product and split again
      (`pair_apply`);
    • the diagonal mask: the "not equal" bit of the row and column index words, as a number (`diag_apply`);
    • the utilities, the fill value where the flag is zero, and the softmax over the 128 alternatives, whose
      maximum and sum are reductions of a `[1, 128]` row to a `[1]` vector, pulled out as scalars (`final_apply`).

  Changes of float format are the identity on the extended reals, and a sum from the zero accumulator is the plain
  sum, so nothing but re-indexing happens between the body's term and the model.
-/
import proofs.«108541_j85521388798585_1_alg».proof.Proof.Gen.KernelIdeal.Skeleton
import proofs.«108541_j85521388798585_1_alg».proof.Proof.Spec
import proofs.«108541_j85521388798585_1_alg».proof.Proof.LibPlainMatmul
import proofs.«108541_j85521388798585_1_alg».proof.Proof.LibLeadingAxisLayout
import proofs.«108541_j85521388798585_1_alg».proof.Proof.LibColumnLayout
import proofs.«108541_j85521388798585_1_alg».proof.Proof.LibOuterLayout
import proofs.«108541_j85521388798585_1_alg».proof.Proof.LibRank3Layout
import proofs.«108541_j85521388798585_1_alg».proof.Proof.LibSmallLayout
import proofs.«108541_j85521388798585_1_alg».proof.Proof.LibUnitLayout
import Idealize.ShloMosaic.Lib.ValueLayout
import Idealize.ShloMosaic.Lib.Pipeline.Value

noncomputable section

namespace Cert.ChoiceKernel

open Idealize.ShloMosaic Idealize.ShloMosaic.ValueIdx Cert.KernelIdeal Cert.KernelIdeal.Gen Cert.ChoiceSpec
open Cert.PlainMatmul Cert.LeadingAxisLayout Cert.ColumnLayout Cert.OuterLayout Cert.Rank3Layout Cert.SmallLayout Cert.UnitLayout

/-! ## The three matrix products are plain products -/

theorem dot1 : dot_S128x32_S32x64_S128x64_1_0_0_1_n_n = DotDims.plain 128 32 64 := rfl
theorem dot2 : dot_S128x64_S64x64_S128x64_1_0_0_1_n_n = DotDims.plain 128 64 64 := rfl
theorem dot3 : dot_S16384x64_S64x64_S16384x64_1_0_0_1_n_n = DotDims.plain 16384 64 64 := rfl

/-- An integer comparison of two arrays is taken entry by entry. -/
theorem cmpi_at {s : Shape} {w : ℕ} (p : CmpIPredicate) (x y : IVec s w) (i : s.Idx) :
    cmpi p x y i = IntOp.cmpi p (x i) (y i) := rfl

/-! ## The reductions, opened

A sum from the zero word is the exact sum of the entries, and a maximum from a starting word is the fold of `max`
from that word's value.  The lemmas below read them at coordinates; the list of reduced axes is a variable with
the equation that names it beside it, so that they apply whatever way the printed list's entries were written. -/

/-- A sum along the second axis of an `[a, b]` array: entry `i` is `∑ⱼ` of the entries `(i, j)`. -/
theorem rowSum_ax {a b : ℕ} (axes : List (Fin (⟨2, ![a, b]⟩ : Shape).rank)) (src : FVec Ideal ⟨2, ![a, b]⟩ .f32)
    (h : (⟨2, ![a, b]⟩ : Shape).Reduces axes ⟨1, ![a]⟩) (hax : axes = [1]) (i : Fin a) :
    FloatOps.reduceAdd (F := Ideal) axes h src (ix1 i) = ∑ j : Fin b, src (ix2 i j) := by
  subst hax; exact rowSum_apply src h (Or.inl rfl) rfl i

/-- A sum along the last axis of an `[a, b, n]` array: entry `(r, s)` is `∑ₖ` of the entries `(r, s, k)`. -/
theorem sumLast_ax {a b n : ℕ} (axes : List (Fin (⟨3, ![a, b, n]⟩ : Shape).rank)) (src : FVec Ideal ⟨3, ![a, b, n]⟩ .f32)
    (h : (⟨3, ![a, b, n]⟩ : Shape).Reduces axes ⟨2, ![a, b]⟩) (hax : axes = [2]) (r : Fin a) (s : Fin b) :
    FloatOps.reduceAdd (F := Ideal) axes h src (ix2 r s) = ∑ k : Fin n, src (ix3 r s k) := by
  subst hax; exact sumLast_apply src h (Or.inl rfl) rfl r s

/-- A maximum along the second axis of an `[a, b]` array from the word of `-∞`: entry `r` is the fold of `max`
    from that word's value over the entries `(r, j)`. -/
theorem rowMax_ax {a b : ℕ} (axes : List (Fin (⟨2, ![a, b]⟩ : Shape).rank)) (src : FVec Ideal ⟨2, ![a, b]⟩ .f32)
    (h : (⟨2, ![a, b]⟩ : Shape).Reduces axes ⟨1, ![a]⟩) (hax : axes = [1]) (r : Fin a) :
    reduceFold h FloatOps.maximumf (FloatOps.ofBits (F := Ideal) .f32 0xFF800000#32) src (ix1 r)
      = (Finset.univ : Finset (Fin b)).fold max (Ideal.ofBits .f32 0xFF800000#32) (fun j => src (ix2 r j)) := by
  subst hax; exact rowMax_apply src 0xFF800000#32 h (Or.inl rfl) rfl r

/-! ## Rows `i·128 + j` of the merged array -/

/-- The row of the `[16384, 64]` array that holds the pair `(i, j)`. -/
def pairRow (i j : Fin 128) : Fin 16384 := ⟨i.val * 128 + j.val, by have := i.isLt; have := j.isLt; omega⟩

/-- Merging the two leading axes: row `pairRow i j` of the flat array is row `(i, j)` of the stacked one. -/
theorem merge_apply {α : Type} (w : S128x128x64.Idx → α) (h : S128x128x64.ShapeCasts S16384x64) (i j : Fin 128) (k : Fin 64) :
    shapeCast S16384x64 w h (ix2 (pairRow i j) k) = w (ix3 i j k) :=
  shapeCast_abn_mn_apply w h i j k (pairRow i j) rfl

/-- Splitting them again. -/
theorem split_apply {α : Type} (z : S16384x64.Idx → α) (h : S16384x64.ShapeCasts S128x128x64) (i j : Fin 128) (k : Fin 64) :
    shapeCast S128x128x64 z h (ix3 i j k) = z (ix2 (pairRow i j) k) :=
  shapeCast_md_abd_apply z h i j k (pairRow i j) rfl

/-- Rows `0 … 31` of the pair perceptron's first matrix. -/
theorem upper_apply {α : Type} (X : S64x64.Idx → α) (h : S64x64.Slices ![0, 0] S32x64) (f : Fin 32) (u : Fin 64) :
    extractStridedSlice S32x64 ![0, 0] X h (ix2 f u) = X (ix2 (⟨f.val, by have := f.isLt; omega⟩ : Fin 64) u) :=
  slice2_axis0_apply 0 X h f u _ (Nat.zero_add _).symm

/-- Rows `32 … 63`. -/
theorem lower_apply {α : Type} (X : S64x64.Idx → α) (h : S64x64.Slices ![32, 0] S32x64) (f : Fin 32) (u : Fin 64) :
    extractStridedSlice S32x64 ![32, 0] X h (ix2 f u) = X (ix2 (⟨32 + f.val, by have := f.isLt; omega⟩ : Fin 64) u) :=
  slice2_axis0_apply 32 X h f u _ rfl

/-- A `[1, 128, 64]` stack of one matrix spread over 128 copies, after the matrix was given its leading unit axis. -/
theorem lead_apply {α : Type} (x : S128x64.Idx → α) (hc : S128x64.ShapeCasts S1x128x64)
    (hb : S1x128x64.Broadcasts S128x128x64) (i j : Fin 128) (u : Fin 64) :
    broadcastTo S128x128x64 (shapeCast S1x128x64 x hc) hb (ix3 i j u) = x (ix2 j u) :=
  (broadcastTo_1bn_abn_apply _ hb i j u).trans (shapeCast_ab_1ab_apply x hc 0 j u)

/-! ## The loaded blocks with their unit axes dropped -/

/-- The features of alternative `a`. -/
theorem feat_apply (v0 : Vec Ideal S1x128x32 .f32) (a : Fin 128) (f : Fin 32) :
    k0_pay2 v0 (ix2 a f) = v0 (ix3 (0 : Fin 1) a f) := by
  unfold k0_pay2
  rw [truncf_apply, shapeCast_1ab_ab_apply]

/-- The flag of alternative `a`. -/
theorem mask_apply (v3 : Vec Ideal S1x1x128 .i32) (a : Fin 128) :
    k0_pay3 (F := Ideal) v3 (ix1 a) = v3 (ix3 (0 : Fin 1) (0 : Fin 1) a) := by
  unfold k0_pay3
  exact shapeCast_11n_n_apply v3 _ a

/-! ## The base score -/

theorem base_apply (v0 : Vec Ideal S1x128x32 .f32) (v5 : Vec Ideal S32x64 .f32) (v8 : Vec Ideal S64 .f32)
    (v14 : Vec Ideal S64x64 .f32) (v18 : Vec Ideal S64 .f32) (v24 : Vec Ideal S64 .f32) (v30 : Vec Ideal S1 .f32) (a : Fin 128) :
    k0_pay4 v0 v5 v8 v14 v18 v24 v30 (ix1 a)
      = head (hidden (hidden (fun f => v0 (ix3 (0 : Fin 1) a f)) (fun f u => v5 (ix2 f u)) (fun u => v8 (ix1 u)))
          (fun u v => v14 (ix2 u v)) (fun v => v18 (ix1 v))) (fun v => v24 (ix1 v)) (v30 (ix1 (0 : Fin 1))) := by
  unfold k0_pay4
  simp only [matmul, dot1, dot2, multiReduction]
  simp (disch := decide) only [addf_apply, mulf_apply, maximumf_apply, truncf_apply, broadcast_apply, rowSum_ax, plain_apply, rows_apply,
    shapeCast_self, extract_one_apply, Fin.sum_univ_one, shapeCast_a_1a_apply, feat_apply]
  simp only [Ideal.ofBits_def, Ideal.ofBits_zero_f32]
  rfl

/-! ## The pair score -/

theorem pair_apply (v2 : FVec Ideal S128x32 .bf16) (v37 : Vec Ideal S64x64 .f32) (v49 : Vec Ideal S64 .f32)
    (v57 : Vec Ideal S64x64 .f32) (v60 : Vec Ideal S64 .f32) (v67 : Vec Ideal S64 .f32) (v73 : Vec Ideal S1 .f32) (i j : Fin 128) :
    k0_pay5 v2 v37 v49 v57 v60 v67 v73 (ix2 i j)
      = head (hidden (fun u => relu ((proj (fun f => v2 (ix2 i f)) (fun f u => v37 (ix2 (⟨f.val, by have := f.isLt; omega⟩ : Fin 64) u)) u
              + proj (fun f => v2 (ix2 j f)) (fun f u => v37 (ix2 (⟨32 + f.val, by have := f.isLt; omega⟩ : Fin 64) u)) u) + v49 (ix1 u)))
          (fun u v => v57 (ix2 u v)) (fun v => v60 (ix1 v))) (fun v => v67 (ix1 v)) (v73 (ix1 (0 : Fin 1))) := by
  unfold k0_pay5
  simp only [matmul, dot1, dot3, multiReduction]
  simp (disch := decide) only [addf_apply, mulf_apply, maximumf_apply, truncf_apply, broadcast_apply, sumLast_ax, row_apply, split_apply,
    merge_apply, plain_apply, rows_apply, middle_apply, lead_apply, upper_apply, lower_apply, shapeCast_self, extract_one_apply,
    rowSum_ax, Fin.sum_univ_one, shapeCast_a_1a_apply]
  simp only [Ideal.ofBits_def, Ideal.ofBits_zero_f32]
  rfl

/-! ## The diagonal mask -/

theorem diag_apply (i j : Fin 128) : FloatOps.sitofp (F := Ideal) .f32 (k0_pay6 (ix2 i j)) = offDiag i j := by
  unfold k0_pay6
  rw [extui_apply, cmpi_at, iota_rows_apply, iota_cols_apply]
  exact ne_word_apply (by norm_num) i j

/-! ## Utilities, fill value and softmax -/

theorem final_apply (v4 : IVec S128 32) (v36 : FVec Ideal S128 .f32) (v79 : FVec Ideal S128x128 .f32) (v83 : IVec S128x128 32) (i : Fin 128) :
    k0_pay1 v4 v36 v79 v83 (ix3 (0 : Fin 1) (0 : Fin 1) i)
      = softmax startValue (masked (fun r => v4 (ix1 r))
          (fun r => v36 (ix1 r) + ∑ l : Fin 128, (v79 (ix2 r l) * FloatOps.sitofp (F := Ideal) .f32 (v83 (ix2 r l))) * (flag (v4 (ix1 r)) * flag (v4 (ix1 l))))
          fillValue) i := by
  unfold k0_pay1
  simp only [multiReduction]
  simp (disch := decide) only [shapeCast_n_11n_apply, divf_apply, subf_apply, exp_apply, addf_apply, mulf_apply, select_apply, cmpi_at, sitofp_apply,
    broadcast_apply, broadcastTo_1_n_apply, extract_one_apply, rowSum_ax, rowMax_ax, shapeCast_a_1a_apply,
    broadcastTo_a1_ab_apply, shapeCast_a_a1_apply, broadcastTo_1b_ab_apply]
  simp only [Ideal.ofBits_def]
  rfl

end Cert.ChoiceKernel

end
-- ==== Proof.KernelValue.lean ====
/-
  From the kernel's blocks to its result array, and the run.

  The grid has one point per batch element.  At point `t` the pipeline stages block `t` of the features
  (`[1, 128, 32]` out of `[64, 128, 32]`) and of the flags (`[1, 1, 128]` out of `[64, 1, 128]`, the flags array with a
  middle unit axis the host added), and the twelve weight arrays whole (the two read-out rows after the host dropped
  their unit axis); the body's result block `[1, 1, 128]` is written back as block `t` of the `[64, 1, 128]` result,
  whose middle unit axis the host drops at the end.  So:

    • each staged block, read at coordinates, is the argument array at batch element `t` (`blk…`);
    • what point `t` writes back is block `t` of `regionOut`, the choice probabilities `G` laid as `[64, 1, 128]`
      (`flushed_eq`: the body's value at a block is the model on the blocks, `body_eq`, and the blocks are the
      arguments');
    • the 64 blocks cover the result array, block `b` holding row `b` (`final14`);
    • the host's last reshape reads row-major position `b·128 + i` on both sides (`result_eq`);
    • the frame run, re-posted with the result array named and the arguments unchanged (`run`).
-/
import proofs.«108541_j85521388798585_1_alg».proof.Proof.Gen.KernelIdeal.Frame
import proofs.«108541_j85521388798585_1_alg».proof.Proof.KernelBody
import Idealize.ShloMosaic.Lib.ValueLayout
import Idealize.ShloMosaic.Lib.Pipeline.Value
import Idealize.ShloMosaic.Lib.StableHlo.Run

set_option maxRecDepth 16384

noncomputable section

namespace Cert.ChoiceKernel

open Idealize.ShloMosaic Idealize.ShloMosaic.TcCoe Idealize.ShloMosaic.ValueIdx Idealize.SL.Sem
open Cert.KernelIdeal Cert.KernelIdeal.Gen Cert.ChoiceSpec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps of the three windows that move with the grid, decided over the grid: block `t` on the
    leading axis, block `0` on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- A grid point as a batch element. -/
def batchOf (t : Fin cfg0.N) : Fin 64 := ⟨t.val, lt_of_lt_of_eq t.isLt N_0⟩

/-! ## The arrays the host wrote before the region -/

/-- The flags with the middle unit axis the host added. -/
theorem V_v0 (c : Dev nD) : (V m c main_v0 : S64x1x128.Idx → BitVec 32)
    = shapeCast S64x1x128 (m ((c : Thread nD τ).loc main_arg1) : S64x128.Idx → BitVec 32) shapeCasts_S64x128_S64x1x128 := by
  show StableHlo.after hostOps0 (fun b => m (c, b)) (Proc.devRef .tc main_v0) = _
  after_results
  rfl

/-- The base perceptron's read-out column as a row. -/
theorem V_v1 (c : Dev nD) : (V m c main_v1 : S64.Idx → EReal)
    = shapeCast S64 (m ((c : Thread nD τ).loc main_arg6) : S64x1.Idx → EReal) shapeCasts_S64x1_S64 := by
  show StableHlo.after hostOps0 (fun b => m (c, b)) (Proc.devRef .tc main_v1) = _
  after_results
  rfl

/-- The pair perceptron's read-out column as a row. -/
theorem V_v2 (c : Dev nD) : (V m c main_v2 : S64.Idx → EReal)
    = shapeCast S64 (m ((c : Thread nD τ).loc main_arg12) : S64x1.Idx → EReal) shapeCasts_S64x1_S64 := by
  show StableHlo.after hostOps0 (fun b => m (c, b)) (Proc.devRef .tc main_v2) = _
  after_results
  rfl

/-- An `[a, 1]` column cast to the row `[a]` reads, at `k`, the column's entry `(k, 0)`. -/
theorem column_row_apply {α : Type} {a : ℕ} (x : (⟨2, ![a, 1]⟩ : Shape).Idx → α)
    (h : (⟨2, ![a, 1]⟩ : Shape).ShapeCasts ⟨1, ![a]⟩) (k : Fin a) :
    shapeCast ⟨1, ![a]⟩ x h (ix1 k) = x (ix2 k (0 : Fin 1)) :=
  shapeCast_apply x h _ _ (by
    rw [Shape.rowMajor_val_two, Shape.rowMajor_val_one]
    show k.val * 1 + 0 = k.val
    omega)

/-- Every index of an `[a, 1]` array is `(j 0, 0)`. -/
theorem idx_a1_eq {a : ℕ} (j : (⟨2, ![a, 1]⟩ : Shape).Idx) : j = ix2 (j 0) (0 : Fin 1) := by
  have h1 : (j 1).val = 0 := Nat.lt_one_iff.mp (j 1).isLt
  funext d
  match d with
  | ⟨0, _⟩ => rfl
  | ⟨1, _⟩ => exact Fin.ext h1

/-! ## The staged blocks are the arguments at batch element `t` -/

/-- The features block. -/
theorem blk0 (c : Dev nD) (t : Fin cfg0.N) (r : Fin 128) (f : Fin 32) :
    (iblk m c 0 t : Vec Ideal S1x128x32 .f32) (ix3 (0 : Fin 1) r f)
      = (m ((c : Thread nD τ).loc main_arg0) : S64x128x32.Idx → EReal) (ix3 (batchOf t) r f) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 128 + 1 * r.val = r.val; omega
  | ⟨2, _⟩ => show win0_0.index t (2 : Fin 3) * 32 + 1 * f.val = f.val; omega

/-- The flags block. -/
theorem blk1 (c : Dev nD) (t : Fin cfg0.N) (r : Fin 128) :
    (iblk m c 1 t : Vec Ideal S1x1x128 .i32) (ix3 (0 : Fin 1) (0 : Fin 1) r)
      = (m ((c : Thread nD τ).loc main_arg1) : S64x128.Idx → BitVec 32) (ix2 (batchOf t) r) := by
  obtain ⟨-, -, -, e0, e1, e2, -⟩ := idx_facts t
  unfold iblk
  rw [View.read_apply]
  show V m c main_v0 _ = _
  rw [V_v0]
  have he : ((cfg0.win 1).blk t).view.emb (ix3 (0 : Fin 1) (0 : Fin 1) r) = ix3 (batchOf t) (0 : Fin 1) r :=
    funext fun a => Fin.ext (by
      match a with
      | ⟨0, _⟩ => show win0_1.index t (0 : Fin 3) * 1 + 1 * 0 = t.val; omega
      | ⟨1, _⟩ => show win0_1.index t (1 : Fin 3) * 1 + 1 * 0 = 0; omega
      | ⟨2, _⟩ => show win0_1.index t (2 : Fin 3) * 128 + 1 * r.val = r.val; omega)
  exact (congrArg (shapeCast S64x1x128 (m ((c : Thread nD τ).loc main_arg1) : S64x128.Idx → BitVec 32) shapeCasts_S64x128_S64x1x128) he).trans
    (Cert.OuterLayout.shapeCast_an_a1n_apply _ _ (batchOf t) 0 r)

theorem blk2 (c : Dev nD) (t : Fin cfg0.N) :
    (iblk m c 2 t : Vec Ideal S32x64 .f32) = (m ((c : Thread nD τ).loc main_arg2) : S32x64.Idx → EReal) := by
  obtain ⟨h0, h1⟩ : win0_2.index t (0 : Fin 2) = 0 ∧ win0_2.index t (1 : Fin 2) = 0 := (by decide +kernel : ∀ t : Fin grid0.N, win0_2.index t (0 : Fin 2) = 0 ∧ win0_2.index t (1 : Fin 2) = 0) t
  funext y
  unfold iblk
  rw [View.read_apply]
  show V m c main_arg2 _ = _
  rw [V_main_arg2]
  congr 1
  funext a
  apply Fin.ext
  match a with
  | ⟨0, _⟩ => show win0_2.index t (0 : Fin 2) * 32 + 1 * (y 0).val = (y 0).val; omega
  | ⟨1, _⟩ => show win0_2.index t (1 : Fin 2) * 64 + 1 * (y 1).val = (y 1).val; omega

theorem blk3 (c : Dev nD) (t : Fin cfg0.N) :
    (iblk m c 3 t : Vec Ideal S64 .f32) = (m ((c : Thread nD τ).loc main_arg3) : S64.Idx → EReal) := by
  have h0 : win0_3.index t (0 : Fin 1) = 0 := (by decide +kernel : ∀ t : Fin grid0.N, win0_3.index t (0 : Fin 1) = 0) t
  funext y
  unfold iblk
  rw [View.read_apply]
  show V m c main_arg3 _ = _
  rw [V_main_arg3]
  congr 1
  funext a
  apply Fin.ext
  match a with
  | ⟨0, _⟩ => show win0_3.index t (0 : Fin 1) * 64 + 1 * (y 0).val = (y 0).val; omega

theorem blk4 (c : Dev nD) (t : Fin cfg0.N) :
    (iblk m c 4 t : Vec Ideal S64x64 .f32) = (m ((c : Thread nD τ).loc main_arg4) : S64x64.Idx → EReal) := by
  obtain ⟨h0, h1⟩ : win0_4.index t (0 : Fin 2) = 0 ∧ win0_4.index t (1 : Fin 2) = 0 := (by decide +kernel : ∀ t : Fin grid0.N, win0_4.index t (0 : Fin 2) = 0 ∧ win0_4.index t (1 : Fin 2) = 0) t
  funext y
  unfold iblk
  rw [View.read_apply]
  show V m c main_arg4 _ = _
  rw [V_main_arg4]
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk5 (c : Dev nD) (t : Fin cfg0.N) :
    (iblk m c 5 t : Vec Ideal S64 .f32) = (m ((c : Thread nD τ).loc main_arg5) : S64.Idx → EReal) := by
  have h0 : win0_5.index t (0 : Fin 1) = 0 := (by decide +kernel : ∀ t : Fin grid0.N, win0_5.index t (0 : Fin 1) = 0) t
  funext y
  unfold iblk
  rw [View.read_apply]
  show V m c main_arg5 _ = _
  rw [V_main_arg5]
  congr 1
  funext a
  apply Fin.ext
  match a with
  | ⟨0, _⟩ => show win0_5.index t (0 : Fin 1) * 64 + 1 * (y 0).val = (y 0).val; omega

theorem blk7 (c : Dev nD) (t : Fin cfg0.N) :
    (iblk m c 7 t : Vec Ideal S1 .f32) = (m ((c : Thread nD τ).loc main_arg7) : S1.Idx → EReal) := by
  have h0 : win0_7.index t (0 : Fin 1) = 0 := (by decide +kernel : ∀ t : Fin grid0.N, win0_7.index t (0 : Fin 1) = 0) t
  funext y
  unfold iblk
  rw [View.read_apply]
  show V m c main_arg7 _ = _
  rw [V_main_arg7]
  congr 1
  funext a
  apply Fin.ext
  match a with
  | ⟨0, _⟩ => show win0_7.index t (0 : Fin 1) * 1 + 1 * (y 0).val = (y 0).val; omega

theorem blk8 (c : Dev nD) (t : Fin cfg0.N) :
    (iblk m c 8 t : Vec Ideal S64x64 .f32) = (m ((c : Thread nD τ).loc main_arg8) : S64x64.Idx → EReal) := by
  obtain ⟨h0, h1⟩ : win0_8.index t (0 : Fin 2) = 0 ∧ win0_8.index t (1 : Fin 2) = 0 := (by decide +kernel : ∀ t : Fin grid0.N, win0_8.index t (0 : Fin 2) = 0 ∧ win0_8.index t (1 : Fin 2) = 0) t
  funext y
  unfold iblk
  rw [View.read_apply]
  show V m c main_arg8 _ = _
  rw [V_main_arg8]
  congr 1
  funext a
  apply Fin.ext
  match a with
  | ⟨0, _⟩ => show win0_8.index t (0 : Fin 2) * 64 + 1 * (y 0).val = (y 0).val; omega
  | ⟨1, _⟩ => show win0_8.index t (1 : Fin 2) * 64 + 1 * (y 1).val = (y 1).val; omega

theorem blk9 (c : Dev nD) (t : Fin cfg0.N) :
    (iblk m c 9 t : Vec Ideal S64 .f32) = (m ((c : Thread nD τ).loc main_arg9) : S64.Idx → EReal) := by
  have h0 : win0_9.index t (0 : Fin 1) = 0 := (by decide +kernel : ∀ t : Fin grid0.N, win0_9.index t (0 : Fin 1) = 0) t
  funext y
  unfold iblk
  rw [View.read_apply]
  show V m c main_arg9 _ = _
  rw [V_main_arg9]
  congr 1
  funext a
  apply Fin.ext
  match a with
  | ⟨0, _⟩ => show win0_9.index t (0 : Fin 1) * 64 + 1 * (y 0).val = (y 0).val; omega

theorem blk10 (c : Dev nD) (t : Fin cfg0.N) :
    (iblk m c 10 t : Vec Ideal S64x64 .f32) = (m ((c : Thread nD τ).loc main_arg10) : S64x64.Idx → EReal) := by
  obtain ⟨h0, h1⟩ : win0_10.index t (0 : Fin 2) = 0 ∧ win0_10.index t (1 : Fin 2) = 0 := (by decide +kernel : ∀ t : Fin grid0.N, win0_10.index t (0 : Fin 2) = 0 ∧ win0_10.index t (1 : Fin 2) = 0) t
  funext y
  unfold iblk
  rw [View.read_apply]
  show V m c main_arg10 _ = _
  rw [V_main_arg10]
  congr 1
  funext a
  apply Fin.ext
  match a with
  | ⟨0, _⟩ => show win0_10.index t (0 : Fin 2) * 64 + 1 * (y 0).val = (y 0).val; omega
  | ⟨1, _⟩ => show win0_10.index t (1 : Fin 2) * 64 + 1 * (y 1).val = (y 1).val; omega

theorem blk11 (c : Dev nD) (t : Fin cfg0.N) :
    (iblk m c 11 t : Vec Ideal S64 .f32) = (m ((c : Thread nD τ).loc main_arg11) : S64.Idx → EReal) := by
  have h0 : win0_11.index t (0 : Fin 1) = 0 := (by decide +kernel : ∀ t : Fin grid0.N, win0_11.index t (0 : Fin 1) = 0) t
  funext y
  unfold iblk
  rw [View.read_apply]
  show V m c main_arg11 _ = _
  rw [V_main_arg11]
  congr 1
  funext a
  apply Fin.ext
  match a with
  | ⟨0, _⟩ => show win0_11.index t (0 : Fin 1) * 64 + 1 * (y 0).val = (y 0).val; omega

theorem blk13 (c : Dev nD) (t : Fin cfg0.N) :
    (iblk m c 13 t : Vec Ideal S1 .f32) = (m ((c : Thread nD τ).loc main_arg13) : S1.Idx → EReal) := by
  have h0 : win0_13.index t (0 : Fin 1) = 0 := (by decide +kernel : ∀ t : Fin grid0.N, win0_13.index t (0 : Fin 1) = 0) t
  funext y
  unfold iblk
  rw [View.read_apply]
  show V m c main_arg13 _ = _
  rw [V_main_arg13]
  congr 1
  funext a
  apply Fin.ext
  match a with
  | ⟨0, _⟩ => show win0_13.index t (0 : Fin 1) * 1 + 1 * (y 0).val = (y 0).val; omega

/-- The read-out row the kernel stages (window 6) is the one column of the `[64, 1]` argument. -/
theorem blk6 (c : Dev nD) (t : Fin cfg0.N) (k : Fin 64) :
    (iblk m c 6 t : Vec Ideal S64 .f32) (ix1 k) = (m ((c : Thread nD τ).loc main_arg6) : S64x1.Idx → EReal) (ix2 k (0 : Fin 1)) := by
  have h0 : win0_6.index t (0 : Fin 1) = 0 := (by decide +kernel : ∀ t : Fin grid0.N, win0_6.index t (0 : Fin 1) = 0) t
  unfold iblk
  rw [View.read_apply]
  show V m c main_v1 _ = _
  rw [V_v1]
  have he : ((cfg0.win 6).blk t).view.emb (ix1 k) = ix1 k :=
    funext fun a => Fin.ext (by
      match a with
      | ⟨0, _⟩ => show win0_6.index t (0 : Fin 1) * 64 + 1 * k.val = k.val; omega)
  exact (congrArg (shapeCast S64 (m ((c : Thread nD τ).loc main_arg6) : S64x1.Idx → EReal) shapeCasts_S64x1_S64) he).trans
    (column_row_apply _ _ k)

/-- The same as an equation of arrays. -/
theorem col6 (c : Dev nD) (t : Fin cfg0.N) :
    (fun j : S64x1.Idx => (iblk m c 6 t : Vec Ideal S64 .f32) (ix1 (j 0))) = (m ((c : Thread nD τ).loc main_arg6) : S64x1.Idx → EReal) :=
  funext fun j => (blk6 m c t (j 0)).trans (congrArg _ (idx_a1_eq j).symm)

/-- The read-out row the kernel stages (window 12) is the one column of the `[64, 1]` argument. -/
theorem blk12 (c : Dev nD) (t : Fin cfg0.N) (k : Fin 64) :
    (iblk m c 12 t : Vec Ideal S64 .f32) (ix1 k) = (m ((c : Thread nD τ).loc main_arg12) : S64x1.Idx → EReal) (ix2 k (0 : Fin 1)) := by
  have h0 : win0_12.index t (0 : Fin 1) = 0 := (by decide +kernel : ∀ t : Fin grid0.N, win0_12.index t (0 : Fin 1) = 0) t
  unfold iblk
  rw [View.read_apply]
  show V m c main_v2 _ = _
  rw [V_v2]
  have he : ((cfg0.win 12).blk t).view.emb (ix1 k) = ix1 k :=
    funext fun a => Fin.ext (by
      match a with
      | ⟨0, _⟩ => show win0_12.index t (0 : Fin 1) * 64 + 1 * k.val = k.val; omega)
  exact (congrArg (shapeCast S64 (m ((c : Thread nD τ).loc main_arg12) : S64x1.Idx → EReal) shapeCasts_S64x1_S64) he).trans
    (column_row_apply _ _ k)

/-- The same as an equation of arrays. -/
theorem col12 (c : Dev nD) (t : Fin cfg0.N) :
    (fun j : S64x1.Idx => (iblk m c 12 t : Vec Ideal S64 .f32) (ix1 (j 0))) = (m ((c : Thread nD τ).loc main_arg12) : S64x1.Idx → EReal) :=
  funext fun j => (blk12 m c t (j 0)).trans (congrArg _ (idx_a1_eq j).symm)

/-! ## The body's value at a block -/

/-- The result block, at alternative `y 2`, is the choice model on the loaded blocks: the features and flags with
    their unit axes dropped, the weights as loaded (the two read-out rows `x6`, `x12` read as one-column arrays). -/
theorem body_eq (x0 : Vec Ideal S1x128x32 .f32) (x1 : Vec Ideal S1x1x128 .i32) (x2 : Vec Ideal S32x64 .f32) (x3 : Vec Ideal S64 .f32)
    (x4 : Vec Ideal S64x64 .f32) (x5 : Vec Ideal S64 .f32) (x6 : Vec Ideal S64 .f32) (x7 : Vec Ideal S1 .f32)
    (x8 : Vec Ideal S64x64 .f32) (x9 : Vec Ideal S64 .f32) (x10 : Vec Ideal S64x64 .f32) (x11 : Vec Ideal S64 .f32)
    (x12 : Vec Ideal S64 .f32) (x13 : Vec Ideal S1 .f32) (y : S1x1x128.Idx) :
    k0_pay1 (k0_pay3 x1) (k0_pay4 x0 x2 x3 x4 x5 x6 x7) (k0_pay5 (k0_pay2 x0) x8 x9 x10 x11 x12 x13) k0_pay6 y
      = choice (weightsOf x2 x3 x4 x5 (fun j : S64x1.Idx => x6 (ix1 (j 0))) x7 x8 x9 x10 x11 (fun j : S64x1.Idx => x12 (ix1 (j 0))) x13)
          (fun r f => x0 (ix3 (0 : Fin 1) r f)) (fun r => x1 (ix3 (0 : Fin 1) (0 : Fin 1) r)) fillValue startValue (y 2) := by
  have h0 : (y 0).val = 0 := Nat.lt_one_iff.mp (y 0).isLt
  have h1 : (y 1).val = 0 := Nat.lt_one_iff.mp (y 1).isLt
  obtain ⟨i, rfl⟩ : ∃ i : Fin 128, y = ix3 (0 : Fin 1) (0 : Fin 1) i :=
    ⟨y 2, funext fun d => by
      match d with
      | ⟨0, _⟩ => exact Fin.ext h0
      | ⟨1, _⟩ => exact Fin.ext h1
      | ⟨2, _⟩ => rfl⟩
  rw [final_apply]
  simp only [mask_apply, base_apply, pair_apply, diag_apply, feat_apply]
  rfl

/-! ## What each point writes back -/

/-- The region's result array: the choice probabilities of batch element `i 0`, alternative `i 2`. -/
def regionOut (c : Dev nD) : S64x1x128.Idx → EReal := fun i =>
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (i 0) (i 2))

/-- WHAT POINT `t` WRITES BACK is block `t` of `regionOut`. -/
theorem flushed_eq (c : Dev nD) (t : Fin cfg0.N) :
    (dats m 0 c).flushed 14 t = ((cfg0.win 14).blk t).view.read (Elt Ideal) (regionOut m c) := by
  show (cfg0.win 14).cut (grid0.coords t) ((dats m 0 c).after 14 t) = _
  rw [after0_14]
  unfold out0_14
  rw [View.canon_unit_zero hz3]
  simp only [View.ld_unit_zero (S := S1x128x32) hz3, View.ld_unit_zero (S := S1x1x128) hz3, View.ld_unit_zero (S := S32x64) hz2,
    View.ld_unit_zero (S := S64) hz1, View.ld_unit_zero (S := S64x64) hz2, View.ld_unit_zero (S := S1) hz1]
  obtain ⟨-, -, -, -, -, -, e0, e1, e2⟩ := idx_facts t
  funext y
  refine (body_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  rw [View.read_apply]
  show _ = regionOut m c (((cfg0.win 14).blk t).view.emb y)
  have hb : (((cfg0.win 14).blk t).view.emb y) 0 = batchOf t := Fin.ext (by
    have hy : (y 0).val = 0 := Nat.lt_one_iff.mp (y 0).isLt
    show win0_14.index t (0 : Fin 3) * 1 + 1 * (y 0).val = t.val
    omega)
  have hi : (((cfg0.win 14).blk t).view.emb y) 2 = y 2 := Fin.ext (by
    show win0_14.index t (2 : Fin 3) * 128 + 1 * (y 2).val = (y 2).val
    omega)
  unfold regionOut G
  rw [hb, hi, blk2, blk3, blk4, blk5, col6, blk7, blk8, blk9, blk10, blk11, col12, blk13]
  show choice _ _ _ _ _ _ = choice _ _ _ _ _ _
  congr 1
  · exact funext fun r => funext fun f => blk0 m c t r f
  · exact funext fun r => blk1 m c t r

/-- An index of the result array is in point `t`'s block iff each coordinate is in the block's range on its axis. -/
theorem mem_blk14 (t : Fin cfg0.N) (i : S64x1x128.Idx) :
    i ∈ ((cfg0.win 14).blk t).view.set ↔ ∀ a : Fin 3, win0_14.index t a * S1x1x128.size a ≤ (i a).val ∧ (i a).val < win0_14.index t a * S1x1x128.size a + S1x1x128.size a := by
  show i ∈ ((View.whole main_v3).slice (win0_14.rect t)).set ↔ _
  rw [View.set_slice_whole, Rect.mem_set_unit]
  exact Iff.rfl

/-- THE RESULT ARRAY after the region: the 64 blocks cover it, block `b` holding batch element `b`. -/
theorem final14 (c : Dev nD) : (dats m 0 c).arrAt 14 cfg0.N = regionOut m c :=
  (dats m 0 c).arrAt_eq_of_cover 14 (regionOut m c) (fun t _ => flushed_eq m c t) fun i => by
    have hi0 : (i 0).val < 64 := (i 0).isLt
    have hi1 : (i 1).val < 1 := (i 1).isLt
    have hi2 : (i 2).val < 128 := (i 2).isLt
    refine ⟨⟨(i 0).val, lt_of_lt_of_eq hi0 N_0.symm⟩, flush0_14 _, ?_⟩
    rw [mem_blk14]
    obtain ⟨-, -, -, -, -, -, e0, e1, e2⟩ := idx_facts ⟨(i 0).val, lt_of_lt_of_eq hi0 N_0.symm⟩
    have e0' : win0_14.index ⟨(i 0).val, lt_of_lt_of_eq hi0 N_0.symm⟩ (0 : Fin 3) = (i 0).val := e0
    intro a
    match a with
    | ⟨0, _⟩ => show win0_14.index _ (0 : Fin 3) * 1 ≤ (i 0).val ∧ (i 0).val < win0_14.index _ (0 : Fin 3) * 1 + 1; omega
    | ⟨1, _⟩ => show win0_14.index _ (1 : Fin 3) * 1 ≤ (i 1).val ∧ (i 1).val < win0_14.index _ (1 : Fin 3) * 1 + 1; omega
    | ⟨2, _⟩ => show win0_14.index _ (2 : Fin 3) * 128 ≤ (i 2).val ∧ (i 2).val < win0_14.index _ (2 : Fin 3) * 128 + 128; omega

/-! ## The host's last reshape, and the run -/

/-- The kernel program's result: the choice probabilities as a `[64, 128]` array. -/
def result (c : Dev nD) : S64x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The `[64, 1, 128]` result with its middle unit axis dropped is `result`: both read row-major position
    `b·128 + i`. -/
theorem result_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [(Pipeline.withArrays_arr spec0 launch0.win.arr_inj c _ _ 14).trans (final14 m c)]
  funext i
  refine (shapeCast_apply (regionOut m c) shapeCasts_S64x1x128_S64x128 i (ix3 (i 0) (0 : Fin 1) (i 1)) ?_).trans ?_
  · rw [Shape.rowMajor_val_three, Shape.rowMajor_val_two]
    show ((i 0).val * 1 + 0) * 128 + (i 1).val = (i 0).val * 128 + (i 1).val
    omega
  · exact congrArg (result m c) (eq_ix2 i).symm

/-- THE RUN, READ: every weakly fair execution of the kernel program terminates with its result array at `result` and
    its fourteen arguments unchanged (the generated frame run, its post read at the result and at the arguments). -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v4 (Pipeline.mem_restRefs_of main_v4 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c)))⟩) (run_main m ρ)

end Cert.ChoiceKernel

end
-- ==== Proof.RefValue.lean ====
/-
  The reference program's result is the choice model of the specification.

  The reference is read one stage at a time, each stage at explicit coordinates (b the batch element, a / i / j the
  alternatives, f a feature, u / v hidden units): the two dense layers and the read-out of the base perceptron, the
  two projections and the three layers of the pair perceptron, the off-diagonal indicator, the availability product,
  the utility, the masked utility, its maximum, and the normalised exponentials.
-/
import proofs.«108541_j85521388798585_1_alg».proof.Proof.Gen.ReferenceIdeal.Read
import proofs.«108541_j85521388798585_1_alg».proof.Proof.Spec
import proofs.«108541_j85521388798585_1_alg».proof.Proof.LibOuterLayout
import Idealize.ShloMosaic.Lib.ValueIdx
import Idealize.ShloMosaic.Lib.IdealHost
import Idealize.ShloMosaic.Lib.Pipeline.Value
import Idealize.ShloMosaic.PureOps.Ideal.Laws

noncomputable section

namespace Cert.ChoiceRef

open Idealize.ShloMosaic Idealize.ShloMosaic.ValueIdx Cert.ReferenceIdeal Cert.ReferenceIdeal.Read Cert.ChoiceSpec

/-- Two rank-1 indices with the same coordinate are equal. -/
local macro "idx1" : tactic => `(tactic| (funext c; match c with | ⟨0, _⟩ => rfl))
/-- Two rank-2 indices with the same coordinates are equal. -/
local macro "idx2" : tactic => `(tactic| (funext c; match c with | ⟨0, _⟩ => rfl | ⟨1, _⟩ => rfl))
/-- Two rank-3 indices with the same coordinates are equal. -/
local macro "idx3" : tactic => `(tactic| (funext c; match c with | ⟨0, _⟩ => rfl | ⟨1, _⟩ => rfl | ⟨2, _⟩ => rfl))
/-- Two rank-4 indices with the same coordinates are equal. -/
local macro "idx4" : tactic => `(tactic| (funext c; match c with | ⟨0, _⟩ => rfl | ⟨1, _⟩ => rfl | ⟨2, _⟩ => rfl | ⟨3, _⟩ => rfl))

/-! ## The base perceptron -/

/-- The first dense layer of the base perceptron, at unit `u` of alternative `a`. -/
theorem base_layer1 (x0 : (⟨S64x128x32, .f32⟩ : BufTy).Contents (Elt Ideal)) (x2 : (⟨S32x64, .f32⟩ : BufTy).Contents (Elt Ideal)) (x3 : (⟨S64, .f32⟩ : BufTy).Contents (Elt Ideal)) (b : Fin 64) (a : Fin 128) (u : Fin 64) :
    val_main_v4 (F := Ideal) x0 x2 x3 (ix3 b a u)
      = hidden (fun f => x0 (ix3 b a f)) (fun f u => x2 (ix2 f u)) (fun u => x3 (ix1 u)) u := by
  rw [val_main_v4_apply, val_main_v3_apply, val_main_v0_apply, val_main_v2_apply, val_main_v1_apply,
    val_main_call0_v0_apply, val_main_call0_cst_apply]
  have e1 : ∀ k : Fin 32, lidx_main_v0 (ix3 b a u) k = ix3 b a k := fun k => by idx3
  have e2 : ∀ k : Fin 32, ridx_main_v0 (ix3 b a u) k = ix2 k u := fun k => by idx2
  have e3 : idx_main_v1 (idx_main_v2 (ix3 b a u)) = ix1 u := by idx1
  simp only [e1, e2, e3, Ideal.maximumf_def, Ideal.addf_def, Ideal.ofBits_def, Ideal.ofBits_zero_f32]
  rfl

/-- The second dense layer of the base perceptron, at unit `v` of alternative `a`. -/
theorem base_layer2 (x0 : (⟨S64x128x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (b : Fin 64) (a : Fin 128) (v : Fin 64) :
    val_main_v9 (F := Ideal) x0 x2 x3 x4 x5 (ix3 b a v)
      = hidden (fun u => val_main_v4 (F := Ideal) x0 x2 x3 (ix3 b a u)) (fun u v => x4 (ix2 u v)) (fun v => x5 (ix1 v)) v := by
  rw [val_main_v9_apply, val_main_v8_apply, val_main_v5_apply, val_main_v7_apply, val_main_v6_apply,
    val_main_call1_v0_apply, val_main_call1_cst_apply]
  have e1 : ∀ k : Fin 64, lidx_main_v5 (ix3 b a v) k = ix3 b a k := fun k => by idx3
  have e2 : ∀ k : Fin 64, ridx_main_v5 (ix3 b a v) k = ix2 k v := fun k => by idx2
  have e3 : idx_main_v6 (idx_main_v7 (ix3 b a v)) = ix1 v := by idx1
  simp only [e1, e2, e3, Ideal.maximumf_def, Ideal.addf_def, Ideal.ofBits_def, Ideal.ofBits_zero_f32]
  rfl

/-- The read-out of the base perceptron, at alternative `a`. -/
theorem base_head (x0 : (⟨S64x128x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (b : Fin 64) (a : Fin 128) :
    val_main_v14 (F := Ideal) x0 x2 x3 x4 x5 x6 x7 (ix2 b a)
      = head (fun v => val_main_v9 (F := Ideal) x0 x2 x3 x4 x5 (ix3 b a v)) (fun v => x6 (ix2 v (0 : Fin 1)))
          (x7 (ix1 (0 : Fin 1))) := by
  have e0 : idx_main_v14 (ix2 b a) = ix3 b a (0 : Fin 1) := by
    have hb := b.isLt
    have ha := a.isLt
    funext c
    match c with
    | ⟨0, _⟩ => exact Fin.ext (by show (b.val * 128 + a.val) / 128 = b.val; omega)
    | ⟨1, _⟩ => exact Fin.ext (by show (b.val * 128 + a.val) / 1 % 128 = a.val; omega)
    | ⟨2, _⟩ => rfl
  rw [val_main_v14_apply, e0, val_main_v13_apply, val_main_v10_apply, val_main_v12_apply, val_main_v11_apply]
  have e1 : ∀ k : Fin 64, lidx_main_v10 (ix3 b a (0 : Fin 1)) k = ix3 b a k := fun k => by idx3
  have e2 : ∀ k : Fin 64, ridx_main_v10 (ix3 b a (0 : Fin 1)) k = ix2 k (0 : Fin 1) := fun k => by idx2
  have e3 : idx_main_v11 (idx_main_v12 (ix3 b a (0 : Fin 1))) = ix1 (0 : Fin 1) := by idx1
  simp only [e1, e2, e3, Ideal.addf_def]
  rfl

/-- The base score of alternative `a`. -/
theorem base_score (x0 : (⟨S64x128x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (a : Fin 128) :
    val_main_v14 (F := Ideal) x0 x2 x3 x4 x5 x6 x7 (ix2 b a)
      = baseScore (weightsOf x2 x3 x4 x5 x6 x7 x8 x9 x10 x11 x12 x13) (fun f => x0 (ix3 b a f)) := by
  rw [base_head]
  simp only [base_layer2, base_layer1]
  rfl

/-! ## The pair perceptron -/

/-- The projection of alternative `i` by the upper half (rows `0 … 31`) of the pair perceptron's first matrix. -/
theorem pair_proj_i (x0 : (⟨S64x128x32, .f32⟩ : BufTy).Contents (Elt Ideal)) (x8 : (⟨S64x64, .f32⟩ : BufTy).Contents (Elt Ideal)) (b : Fin 64) (i : Fin 128) (u : Fin 64) :
    val_main_v17 (F := Ideal) x0 x8 (ix3 b i u)
      = proj (fun f => x0 (ix3 b i f))
          (fun f u => x8 (ix2 (⟨f.val, by have := f.isLt; omega⟩ : Fin 64) u)) u := by
  rw [val_main_v17_apply]
  have e1 : ∀ k : Fin 32, lidx_main_v17 (ix3 b i u) k = ix3 b i k := fun k => by idx3
  have e2 : ∀ k : Fin 32, idx_main_v15 (ridx_main_v17 (ix3 b i u) k)
      = ix2 (⟨k.val, by have := k.isLt; omega⟩ : Fin 64) u := fun k => by idx2
  simp only [val_main_v15_apply, e1, e2]
  rfl

/-- The projection of alternative `j` by the lower half (rows `32 … 63`) of the pair perceptron's first matrix. -/
theorem pair_proj_j (x0 : (⟨S64x128x32, .f32⟩ : BufTy).Contents (Elt Ideal)) (x8 : (⟨S64x64, .f32⟩ : BufTy).Contents (Elt Ideal)) (b : Fin 64) (j : Fin 128) (u : Fin 64) :
    val_main_v18 (F := Ideal) x0 x8 (ix3 b j u)
      = proj (fun f => x0 (ix3 b j f))
          (fun f u => x8 (ix2 (⟨32 + f.val, by have := f.isLt; omega⟩ : Fin 64) u)) u := by
  rw [val_main_v18_apply]
  have e1 : ∀ k : Fin 32, lidx_main_v18 (ix3 b j u) k = ix3 b j k := fun k => by idx3
  have e2 : ∀ k : Fin 32, idx_main_v16 (ridx_main_v18 (ix3 b j u) k)
      = ix2 (⟨32 + k.val, by have := k.isLt; omega⟩ : Fin 64) u := fun k => by idx2
  simp only [val_main_v16_apply, e1, e2]
  rfl

/-- The first layer of the pair perceptron on `(i, j)`, at unit `u`: the two projections are added first, then the
    bias, then the rectifier. -/
theorem pair_layer1 (x0 : (⟨S64x128x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i j : Fin 128) (u : Fin 64) :
    val_main_v27 (F := Ideal) x0 x8 x9 (ix4 b i j u)
      = pairHidden (weightsOf x2 x3 x4 x5 x6 x7 x8 x9 x10 x11 x12 x13) (fun f => x0 (ix3 b i f))
          (fun f => x0 (ix3 b j f)) u := by
  have e1 : idx_main_v19 (idx_main_v21 (ix4 b i j u)) = ix3 b i u := by idx3
  have e2 : idx_main_v20 (idx_main_v22 (ix4 b i j u)) = ix3 b j u := by idx3
  have e3 : idx_main_v24 (idx_main_v25 (ix4 b i j u)) = ix1 u := by idx1
  rw [val_main_v27_apply, val_main_v26_apply, val_main_v23_apply, val_main_v21_apply, val_main_v19_apply, e1,
    val_main_v22_apply, val_main_v20_apply, e2, val_main_v25_apply, val_main_v24_apply, e3,
    val_main_call2_v0_apply, val_main_call2_cst_apply, pair_proj_i, pair_proj_j]
  simp only [Ideal.maximumf_def, Ideal.addf_def, Ideal.ofBits_def, Ideal.ofBits_zero_f32]
  rfl

/-- The second layer of the pair perceptron on `(i, j)`, at unit `v`. -/
theorem pair_layer2 (x0 : (⟨S64x128x32, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (b : Fin 64) (i j : Fin 128) (v : Fin 64) :
    val_main_v32 (F := Ideal) x0 x8 x9 x10 x11 (ix4 b i j v)
      = hidden (fun u => val_main_v27 (F := Ideal) x0 x8 x9 (ix4 b i j u)) (fun u v => x10 (ix2 u v))
          (fun v => x11 (ix1 v)) v := by
  rw [val_main_v32_apply, val_main_v31_apply, val_main_v28_apply, val_main_v30_apply, val_main_v29_apply,
    val_main_call3_v0_apply, val_main_call3_cst_apply]
  have e1 : ∀ k : Fin 64, lidx_main_v28 (ix4 b i j v) k = ix4 b i j k := fun k => by idx4
  have e2 : ∀ k : Fin 64, ridx_main_v28 (ix4 b i j v) k = ix2 k v := fun k => by idx2
  have e3 : idx_main_v29 (idx_main_v30 (ix4 b i j v)) = ix1 v := by idx1
  simp only [e1, e2, e3, Ideal.maximumf_def, Ideal.addf_def, Ideal.ofBits_def, Ideal.ofBits_zero_f32]
  rfl

/-- The read-out of the pair perceptron on `(i, j)`. -/
theorem pair_head (x0 : (⟨S64x128x32, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i j : Fin 128) :
    val_main_v37 (F := Ideal) x0 x8 x9 x10 x11 x12 x13 (ix3 b i j)
      = head (fun v => val_main_v32 (F := Ideal) x0 x8 x9 x10 x11 (ix4 b i j v)) (fun v => x12 (ix2 v (0 : Fin 1)))
          (x13 (ix1 (0 : Fin 1))) := by
  have e0 : idx_main_v37 (ix3 b i j) = ix4 b i j (0 : Fin 1) := by
    have hb := b.isLt
    have hi := i.isLt
    have hj := j.isLt
    funext c
    match c with
    | ⟨0, _⟩ => exact Fin.ext (by show ((b.val * 128 + i.val) * 128 + j.val) / 16384 = b.val; omega)
    | ⟨1, _⟩ => exact Fin.ext (by show ((b.val * 128 + i.val) * 128 + j.val) / 128 % 128 = i.val; omega)
    | ⟨2, _⟩ => exact Fin.ext (by show ((b.val * 128 + i.val) * 128 + j.val) / 1 % 128 = j.val; omega)
    | ⟨3, _⟩ => rfl
  rw [val_main_v37_apply, e0, val_main_v36_apply, val_main_v33_apply, val_main_v35_apply, val_main_v34_apply]
  have e1 : ∀ k : Fin 64, lidx_main_v33 (ix4 b i j (0 : Fin 1)) k = ix4 b i j k := fun k => by idx4
  have e2 : ∀ k : Fin 64, ridx_main_v33 (ix4 b i j (0 : Fin 1)) k = ix2 k (0 : Fin 1) := fun k => by idx2
  have e3 : idx_main_v34 (idx_main_v35 (ix4 b i j (0 : Fin 1))) = ix1 (0 : Fin 1) := by idx1
  simp only [e1, e2, e3, Ideal.addf_def]
  rfl

/-- The pair score of `(i, j)`. -/
theorem pair_score (x0 : (⟨S64x128x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i j : Fin 128) :
    val_main_v37 (F := Ideal) x0 x8 x9 x10 x11 x12 x13 (ix3 b i j)
      = pairScore (weightsOf x2 x3 x4 x5 x6 x7 x8 x9 x10 x11 x12 x13) (fun f => x0 (ix3 b i f))
          (fun f => x0 (ix3 b j f)) := by
  rw [pair_head]
  simp only [pair_layer2, pair_layer1 x0 x2 x3 x4 x5 x6 x7 x8 x9 x10 x11 x12 x13]
  rfl

/-! ## The off-diagonal indicator, the availability product, the utility -/

/-- The positions of two alternatives, written as 32-bit words, are equal exactly when the alternatives are: both
    positions are below `128`, far below `2 ^ 32`. -/
theorem word_eq_iff (i j : Fin 128) : BitVec.ofNat 32 i.val = BitVec.ofNat 32 j.val ↔ i = j := by
  constructor
  · intro he
    have hi : i.val < 2 ^ 32 := lt_trans i.isLt (by norm_num)
    have hj : j.val < 2 ^ 32 := lt_trans j.isLt (by norm_num)
    have ht := congrArg BitVec.toNat he
    rw [BitVec.toNat_ofNat, BitVec.toNat_ofNat, Nat.mod_eq_of_lt hi, Nat.mod_eq_of_lt hj] at ht
    exact Fin.ext ht
  · intro he
    rw [he]

/-- The indicator of the diagonal, as the comparison of the two position words read as a number. -/
theorem diag_word (i j : Fin 128) :
    (((IntOp.cmpi .eq (IntOp.addi (BitVec.ofNat 32 i.val) 0#32) (BitVec.ofNat 32 j.val)).toNat : ℝ) : EReal)
      = if i = j then 1 else 0 := by
  unfold IntOp.cmpi IntOp.addi
  rw [BitVec.add_zero]
  by_cases h : i = j
  · subst h
    simp
  · have hne : (BitVec.ofNat 32 i.val == BitVec.ofNat 32 j.val) = false := by
      rw [beq_eq_false_iff_ne]
      exact fun he => h ((word_eq_iff i j).mp he)
    rw [if_neg h]
    simp only [hne]
    simp

/-- One minus the diagonal's indicator, spread over the batch: `0` on the diagonal, `1` off it. -/
theorem off_diag (b : Fin 64) (i j : Fin 128) : val_main_v47 (F := Ideal) (ix3 b i j) = offDiag i j := by
  have e1 : idx_main_v46 (idx_main_v47 (ix3 b i j)) = ix2 i j := by idx2
  rw [val_main_v47_apply, val_main_v46_apply, e1, val_main_v45_apply, val_main_v44_apply, val_main_cst_apply,
    val_main_v43_apply, val_main_v42_apply, val_main_v41_apply, val_main_v38_apply, val_main_v40_apply,
    val_main_c_apply, val_main_v39_apply, ← one_sub_diag i j, ← diag_word i j, ← Ideal.ofBits_one_f32]
  rfl

/-- One term of the utility's sum: the pair score, times the off-diagonal indicator, times the product of the two
    availability flags read as numbers. -/
theorem pair_term (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i j : Fin 128) :
    val_main_v55 (F := Ideal) x0 x1 x8 x9 x10 x11 x12 x13 (ix3 b i j)
      = (pairScore (weightsOf x2 x3 x4 x5 x6 x7 x8 x9 x10 x11 x12 x13) (fun f => x0 (ix3 b i f)) (fun f => x0 (ix3 b j f)) * offDiag i j)
          * (flag (x1 (ix2 b i)) * flag (x1 (ix2 b j))) := by
  have e1 : idx_main_v50 (idx_main_v52 (ix3 b i j)) = ix2 b i := by idx2
  have e2 : idx_main_v51 (idx_main_v53 (ix3 b i j)) = ix2 b j := by idx2
  rw [val_main_v55_apply, val_main_v48_apply, val_main_v54_apply, val_main_v52_apply, val_main_v50_apply, e1,
    val_main_v49_apply, val_main_v53_apply, val_main_v51_apply, e2, val_main_v49_apply,
    pair_score x0 x2 x3 x4 x5 x6 x7 x8 x9 x10 x11 x12 x13, off_diag]
  rfl

/-- The utility of alternative `i`: its base score plus the sum of the pair terms (the sum starts from zero). -/
theorem utility_eq (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i : Fin 128) :
    val_main_v57 (F := Ideal) x0 x1 x2 x3 x4 x5 x6 x7 x8 x9 x10 x11 x12 x13 (ix2 b i)
      = utility (weightsOf x2 x3 x4 x5 x6 x7 x8 x9 x10 x11 x12 x13) (fun r f => x0 (ix3 b r f)) (fun r => x1 (ix2 b r)) i := by
  have e1 : ∀ k : Fin 128, idx_main_v56 (ix2 b i) k = ix3 b i k := fun k => by idx3
  rw [val_main_v57_apply, val_main_v56_apply, val_main_cst_0_apply,
    base_score x0 x2 x3 x4 x5 x6 x7 x8 x9 x10 x11 x12 x13]
  simp only [e1, pair_term x0 x1 x2 x3 x4 x5 x6 x7 x8 x9 x10 x11 x12 x13, Ideal.addf_def, Ideal.ofBits_def,
    Ideal.ofBits_zero_f32, zero_add]
  rfl

/-! ## The mask, the maximum, the normalised exponentials -/

/-- The masked utility: the utility where the availability flag is not zero, the fill value elsewhere. -/
theorem masked_eq (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i : Fin 128) :
    val_main_v61 (F := Ideal) x0 x1 x2 x3 x4 x5 x6 x7 x8 x9 x10 x11 x12 x13 (ix2 b i)
      = masked (fun r => x1 (ix2 b r)) (utility (weightsOf x2 x3 x4 x5 x6 x7 x8 x9 x10 x11 x12 x13) (fun r f => x0 (ix3 b r f)) (fun r => x1 (ix2 b r))) fillValue i := by
  rw [val_main_v61_apply, val_main_v60_apply, val_main_v59_apply, val_main_v58_apply, val_main_c_1_apply,
    utility_eq, val_main_call4_v0_apply, val_main_cst_2_apply]
  rfl

/-- The largest masked utility of batch element `b`: the fold of `max` over the alternatives from the starting
    value, and the maximum of that with the starting value once more, which changes nothing. -/
theorem top_eq (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) :
    val_main_v64 (F := Ideal) x0 x1 x2 x3 x4 x5 x6 x7 x8 x9 x10 x11 x12 x13 (ix1 b)
      = top startValue (masked (fun r => x1 (ix2 b r)) (utility (weightsOf x2 x3 x4 x5 x6 x7 x8 x9 x10 x11 x12 x13) (fun r f => x0 (ix3 b r f)) (fun r => x1 (ix2 b r))) fillValue) := by
  have hfold : val_main_v62 (F := Ideal) x0 x1 x2 x3 x4 x5 x6 x7 x8 x9 x10 x11 x12 x13 (ix1 b)
      = (Finset.univ : Finset (Fin 128)).fold max startValue
          (fun j => val_main_v61 (F := Ideal) x0 x1 x2 x3 x4 x5 x6 x7 x8 x9 x10 x11 x12 x13 (ix2 b j)) :=
    Cert.OuterLayout.hostRowMax_apply (val_main_v61 (F := Ideal) x0 x1 x2 x3 x4 x5 x6 x7 x8 x9 x10 x11 x12 x13)
      (val_main_cst_3 (F := Ideal)) Gen.reducesTo_S64x128_S64_d1 (by decide) Gen.h_S_ b
  rw [val_main_v64_apply, val_main_v63_apply, val_main_cst_4_apply, hfold]
  simp only [masked_eq x0 x1 x2 x3 x4 x5 x6 x7 x8 x9 x10 x11 x12 x13]
  exact max_start_top startValue _

/-- The exponential of the masked utility less the largest one. -/
theorem exp_eq (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i : Fin 128) :
    val_main_v68 (F := Ideal) x0 x1 x2 x3 x4 x5 x6 x7 x8 x9 x10 x11 x12 x13 (ix2 b i)
      = Ideal.exp (masked (fun r => x1 (ix2 b r)) (utility (weightsOf x2 x3 x4 x5 x6 x7 x8 x9 x10 x11 x12 x13) (fun r f => x0 (ix3 b r f)) (fun r => x1 (ix2 b r))) fillValue i
          - top startValue (masked (fun r => x1 (ix2 b r)) (utility (weightsOf x2 x3 x4 x5 x6 x7 x8 x9 x10 x11 x12 x13) (fun r f => x0 (ix3 b r f)) (fun r => x1 (ix2 b r))) fillValue)) := by
  have e1 : idx_main_v65 (idx_main_v66 (ix2 b i)) = ix1 b := by idx1
  rw [val_main_v68_apply, val_main_v67_apply, val_main_v66_apply, val_main_v65_apply, e1, top_eq, masked_eq]
  rfl

/-- The result at `(b, i)`: the exponential divided by the sum of the exponentials over the alternatives (the sum
    starts from zero), which is the softmax of the masked utilities. -/
theorem value_at (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (b : Fin 64) (i : Fin 128) :
    val_main_v72 (F := Ideal) x0 x1 x2 x3 x4 x5 x6 x7 x8 x9 x10 x11 x12 x13 (ix2 b i)
      = G x0 x1 x2 x3 x4 x5 x6 x7 x8 x9 x10 x11 x12 x13 (ix2 b i) := by
  have e1 : idx_main_v70 (idx_main_v71 (ix2 b i)) = ix1 b := by idx1
  have e2 : ∀ k : Fin 128, idx_main_v69 (ix1 b) k = ix2 b k := fun k => by idx2
  rw [val_main_v72_apply, val_main_v71_apply, val_main_v70_apply, e1, val_main_v69_apply, val_main_cst_5_apply]
  simp only [e2, exp_eq x0 x1 x2 x3 x4 x5 x6 x7 x8 x9 x10 x11 x12 x13, Ideal.hostDivf_def, Ideal.ofBits_def, Ideal.ofBits_zero_f32, zero_add]
  rfl

/-- The reference program's result is the choice model of the specification. -/
theorem value_eq (x0 : (⟨S64x128x32, .f32⟩ : BufTy).Contents (Elt Ideal)) (x1 : (⟨S64x128, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) :
    val_main_v72 (F := Ideal) x0 x1 x2 x3 x4 x5 x6 x7 x8 x9 x10 x11 x12 x13 = G x0 x1 x2 x3 x4 x5 x6 x7 x8 x9 x10 x11 x12 x13 := by
  funext i
  obtain ⟨b, a, rfl⟩ : ∃ (b : Fin 64) (a : Fin 128), i = ix2 b a := ⟨i 0, i 1, eq_ix2 i⟩
  exact value_at x0 x1 x2 x3 x4 x5 x6 x7 x8 x9 x10 x11 x12 x13 b a

end Cert.ChoiceRef

end
-- ==== Proof.lean ====
/-
  The certificate's five claims.

  Both idealized programs compute, for every batch element `b` and alternative `i`, the choice probability
  `G … (b, i)` of `Proof/Spec.lean`: two small perceptrons score the alternatives and the pairs of alternatives, the pair
  scores are summed off the diagonal and under the availability flags, unavailable alternatives get the fill value
  `-10⁹`, and a softmax over the 128 alternatives normalises the utilities.

    • The kernel's side (`Proof/KernelBody.lean`, `Proof/KernelValue.lean`): the body's result block is the model on the
      blocks the pipeline stages; the blocks are the argument arrays at batch element `t`; the 64 result blocks cover
      the result array; the host's last reshape drops a unit axis.
    • The reference's side (`Proof/RefValue.lean`): its result term, read stage by stage, is the same model on the
      argument arrays.

  The two sides differ only in the arrangement of the arrays (a batch axis against a grid of 64 points, the pairs
  stacked as `[128, 128, 64]` or merged as `[16384, 64]`), in changes of float format, which are the identity on the
  extended reals, in `0 + x` against `x`, in `1 - [i = j]` against `[i ≠ j]`, and in a maximum taken once more with its
  own starting value `-∞`; none of these needs the inputs to be finite, so the precondition is not opened.

  The three frames are the generated ones (the reference's is its generated run with the result dropped), and the
  idealization rewrote nothing, so `preserves` has nothing to state.
-/
import proofs.«108541_j85521388798585_1_alg».proof.Defs
import proofs.«108541_j85521388798585_1_alg».proof.Proof.Gen.Kernel
import proofs.«108541_j85521388798585_1_alg».proof.Proof.Gen.Kernel.Skeleton
import proofs.«108541_j85521388798585_1_alg».proof.Proof.Gen.Kernel.Launch
import proofs.«108541_j85521388798585_1_alg».proof.Proof.Gen.Kernel.Points
import proofs.«108541_j85521388798585_1_alg».proof.Proof.Gen.Kernel.Frame
import proofs.«108541_j85521388798585_1_alg».proof.Proof.Gen.KernelIdeal
import proofs.«108541_j85521388798585_1_alg».proof.Proof.Gen.KernelIdeal.Skeleton
import proofs.«108541_j85521388798585_1_alg».proof.Proof.Gen.KernelIdeal.Launch
import proofs.«108541_j85521388798585_1_alg».proof.Proof.Gen.KernelIdeal.Points
import proofs.«108541_j85521388798585_1_alg».proof.Proof.Gen.KernelIdeal.Frame
import proofs.«108541_j85521388798585_1_alg».proof.Proof.Gen.ReferenceIdeal
import proofs.«108541_j85521388798585_1_alg».proof.Proof.Gen.Pre_finite_inputs
import proofs.«108541_j85521388798585_1_alg».proof.Proof.Gen.ReferenceIdeal.Read
import proofs.«108541_j85521388798585_1_alg».proof.Proof.KernelValue
import proofs.«108541_j85521388798585_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the fourteen arguments, both idealized programs end with the array of choice
    probabilities `G` of those arguments. -/
theorem algebraic : Cert.algebraic_KernelIdeal_ReferenceIdeal := by
  intro m ρ m' ρ' _ hagree
  refine ⟨fun c => Cert.ChoiceKernel.result m c, Cert.ChoiceKernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v72_eq, Cert.ChoiceRef.value_eq, h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
